-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_sqrt_d" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x2048 : Shape := ⟨3, ![8, 2048, 2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : IVec S8x2048x2048 32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x2048x2048 : Shape := ⟨3, ![8, 2048, 2048]⟩
abbrev S8x1x512 : Shape := ⟨3, ![8, 1, 512]⟩
abbrev S1x256x512 : Shape := ⟨3, ![1, 256, 512]⟩
abbrev S1x2048x512 : Shape := ⟨3, ![1, 2048, 512]⟩
abbrev S1x256x2048 : Shape := ⟨3, ![1, 256, 2048]⟩
abbrev S1x1x512 : Shape := ⟨3, ![1, 1, 512]⟩
abbrev S1x2048 : Shape := ⟨2, ![1, 2048]⟩
abbrev S256x512 : Shape := ⟨2, ![256, 512]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x512 : Shape := ⟨2, ![1, 512]⟩
abbrev S8x512 : Shape := ⟨2, ![8, 512]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .i32⟩
  | .hbm, ⟨2, _⟩ => ⟨S8x2048x512, .bf16⟩
  | .hbm, ⟨3, _⟩ => ⟨S8x2048x2048, .f32⟩
  | .hbm, ⟨4, _⟩ => ⟨S8x1x512, .f32⟩
  | .hbm, ⟨5, _⟩ => ⟨S8x512, .f32⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x2048, .i32⟩
  | .local _ .vmem, ⟨5, _⟩ => ⟨S1x256x2048, .i32⟩
  | .local _ .vmem, ⟨6, _⟩ => ⟨S1x256x2048, .f32⟩
  | .local _ .vmem, ⟨7, _⟩ => ⟨S1x256x2048, .f32⟩
  | .local _ .vmem, ⟨8, _⟩ => ⟨S1x1x512, .f32⟩
  | .local _ .vmem, ⟨9, _⟩ => ⟨S1x1x512, .f32⟩
  | .local _ .vmem, ⟨10, _⟩ => ⟨S1x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_22 : BitVec 32 := 0#32
  let v39 : BitVec 1 := Scalar.cmpi .ne v38 c0_i32_22
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  transposes_S2048x512_p1_0_S512x2048 : S2048x512.Transposes [1, 0] S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  reduces_S256x2048_S2048 : S256x2048.Reduces [0] S2048
  shapeCasts_S2048_S1x2048 : S2048.ShapeCasts S1x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S8x1x512_S8x512 : S8x1x512.ShapeCasts S8x512
  dot_S256x512_S512x2048_S256x2048_1_0_0_1_n_n_wf : DotDims.WF S256x512 S512x2048 S256x2048 [1] [0] [0] [1] [] []
  dot_S1x2048_S2048x512_S1x512_1_0_0_1_n_n_wf : DotDims.WF S1x2048 S2048x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x2048x512.size a
  hwx0_0 : ∀ i : grid0.Coords, EltTy.bits .bf16 = 32 ∨ (Rect.block (s := S8x2048x512) S1x256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .bf16 = 32 ∨ (Rect.block (s := S8x2048x512) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .i32 = 32 ∨ (Rect.block (s := S8x2048x2048) S1x256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x512.size a
  hwx0_4 : ∀ i : grid0.Coords, EltTy.bits .f32 = 32 ∨ (Rect.block (s := S8x1x512) S1x1x512.size (cc0_transform_4 i) (hinb0_4 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x512 : Shape := ⟨2, ![8, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .i32⟩
  | .hbm, ⟨2, _⟩ => ⟨S8x2048x2048, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .i32⟩
  | .hbm, ⟨8, _⟩ => ⟨S8x2048x2048, .i32⟩
  | .hbm, ⟨9, _⟩ => ⟨S8x2048x2048, .i1⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x512, .f32⟩
  | .hbm, ⟨28, _⟩ => ⟨S_, .f32⟩
  | .hbm, ⟨29, _⟩ => ⟨S8x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x512_S8x512_d1 : S8x2048x512.ReducesTo [1] S8x512
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.K.Base.lean ====
/-
  The attention kernel's run, point by point: what the shared definitions are. The grid has 64 points, point t
  being batch t / 8 and query tile t % 8. The body zeroes the column-sum scratch at the first tile of a batch
  (t % 8 = 0), adds the tile's column sums of the probabilities at every tile, and at the last tile (t % 8 = 7)
  multiplies the accumulated column sums with the key slab into the second result's block. Here: the contents V of
  the buffers when the region is entered, each window's block at a point, the two conditions in closed form, where
  the second result's window is idle, and the staging and scratch memrefs.
-/
import proofs.«126320_j37881611551174_2_alg».proof.Proof.Gen.Kernel.Launch
import proofs.«126320_j37881611551174_2_alg».proof.Proof.Gen.Kernel.Skeleton
import proofs.«126320_j37881611551174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block
    index has not moved). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first query tile of its batch": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last query tile of its batch": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a batch's last tile the second result's window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a batch's last tile it is live. -/
theorem liveAt0_4 : ∀ t : Fin cfg0.N, cond0_1 (grid0.coords t) → cfg0.idle 4 (grid0.coords t) = false := by decide +kernel

/-! ## The memrefs the body is called with -/

abbrev VO0_3 : View sig .tc .vmem S1x256x2048 .f32 := (Memref.whole cc0_stg3_0 : Memref sig .tc .vmem S1x256x2048 .f32).view
abbrev VO0_4 : View sig .tc .vmem S1x1x512 .f32 := (Memref.whole cc0_stg4_0 : Memref sig .tc .vmem S1x1x512 .f32).view
abbrev ms0_0 (t : Fin cfg0.N) : Memref sig .tc .vmem S1x256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
/-- The column-sum scratch: a whole scoped buffer of the kernel's own. -/
abbrev scM0_0 : Memref sig .tc .vmem S1x2048 .f32 := Memref.whole cc0_scratch0
abbrev VS0_0 : View sig .tc .vmem S1x2048 .f32 := scM0_0.view

/-- The region's invariant as the launch hands it over: the scratch owned at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.K.RunA.lean ====
/-
  The body's run at the first query tile of a batch: the scratch is zeroed, then the tile's column sums are added to it; the probabilities' block is stored; the second result's buffer is not touched.
-/
import proofs.«126320_j37881611551174_2_alg».proof.Proof.K.Base

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a first tile (first condition true, second false): from whole staging memrefs — the three inputs at their
    contents, the probabilities' buffer and the scratch at anything, the second result's buffer at contents handed
    back untouched — the body runs to the continuation with the inputs as they were, and the probabilities' buffer
    and the scratch holding the pieces its stores wrote (the pieces are the witness the run finds). -/
noncomputable def kernelRun0_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i)
    (x0 : Vec F S1x256x512 .bf16) (x1 : Vec F S1x2048x512 .bf16) (x2 : Vec F S1x256x2048 .i32) :
    Σ' (L3 : List (View.Piece (Elt F) S1x256x2048 .f32)), { LS0 : List (View.Piece (Elt F) S1x2048 .f32) //
      ∀ (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.Frame

end
-- ==== Proof.K.RunB.lean ====
/-
  The body's run at a middle query tile of a batch: the tile's column sums are added to the scratch as the tile before left it; the probabilities' block is stored; the second result's buffer is not touched.
-/
import proofs.«126320_j37881611551174_2_alg».proof.Proof.K.RunA

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle tile (both conditions false): the scratch enters at the contents `xs0` the tile before left. -/
noncomputable def kernelRun0_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i)
    (x0 : Vec F S1x256x512 .bf16) (x1 : Vec F S1x2048x512 .bf16) (x2 : Vec F S1x256x2048 .i32) (xs0 : Vec F S1x2048 .f32) :
    Σ' (L3 : List (View.Piece (Elt F) S1x256x2048 .f32)), { LS0 : List (View.Piece (Elt F) S1x2048 .f32) //
      ∀ (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.Frame

end
-- ==== Proof.K.RunC.lean ====
/-
  The body's run at the last query tile of a batch: the tile's column sums are added to the scratch, and the accumulated column sums times the key slab are stored into the second result's buffer; the probabilities' block is stored.
-/
import proofs.«126320_j37881611551174_2_alg».proof.Proof.K.RunB

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a last tile (first condition false, second true): the scratch enters at the contents `xs0` the tile before
    left; the second result's buffer enters at anything and leaves with the pieces the store wrote. -/
noncomputable def kernelRun0_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i)
    (x0 : Vec F S1x256x512 .bf16) (x1 : Vec F S1x2048x512 .bf16) (x2 : Vec F S1x256x2048 .i32) (xs0 : Vec F S1x2048 .f32) :
    Σ' (L3 : List (View.Piece (Elt F) S1x256x2048 .f32)) (L4 : List (View.Piece (Elt F) S1x1x512 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Frame

end
-- ==== Proof.K.Frame.lean ====
/-
  What the staging buffers and the scratch hold after each grid point, the proof data of the pipeline, and the body's obligation at every point: the scratch after a point is the case's run over what the point before left (a recursion on the point), the probabilities' buffer and the second result's buffer are the case's pieces read back.
-/
import proofs.«126320_j37881611551174_2_alg».proof.Proof.K.RunC

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) (y : S1x256x2048.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x256x2048.size (by sl_kernel_rfl) y
def out0_A_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) : Vec F S1x256x2048 .f32 :=
  VO0_3.read (Elt F) (VO0_3.writes (Elt F) VO0_3.junk (kernelRun0_A c i arg2 harg2 arg3 harg3 arg4 harg4 arg5 harg5 arg6 harg6 arg7 harg7 hc0 hc1 x0 x1 x2).1)
theorem scover0_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) (y : S1x2048.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x2048.size (by sl_kernel_rfl) y
def sout0_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) : Vec F S1x2048 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

theorem cover0_B_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) (y : S1x256x2048.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S1x256x2048.size (by sl_kernel_rfl) y
def out0_B_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) : Vec F S1x256x2048 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
theorem scover0_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) (y : S1x2048.Idx) :
    ∃ pc ∈ (kernelRun0_B c i arg2 harg2 arg3 harg3 arg4 harg4 arg5 harg5 arg6 harg6 arg7 harg7 hc0 hc1 x0 x1 x2 xs0).2.1, y ∈ pc.1.set :=
  View.cover_of_tiledL (kernelRun0_B c i arg2 harg2 arg3 harg3 arg4 harg4 arg5 harg5 arg6 harg6 arg7 harg7 hc0 hc1 x0 x1 x2 xs0).2.1 S1x2048.size (by sl_kernel_rfl) y
def sout0_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.1)

theorem cover0_C_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) (y : S1x256x2048.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x256x2048.size (by sl_kernel_rfl) y
def out0_C_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) : Vec F S1x256x2048 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
theorem cover0_C_4 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) (y : S1x1x512.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x1x512.size (by sl_kernel_rfl) y
def out0_C_4 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) : Vec F S1x1x512 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
theorem scover0_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) (y : S1x2048.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1x2048.size (by sl_kernel_rfl) y
def sout0_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-! ## The scratch after each point -/

/-- THE ACCUMULATION: what the column-sum scratch holds after the body at position `n` — at a batch's first tile
    the first case's run, at a later tile the case's run over what position `n - 1` left. -/
def scrAt (c : Dev nD) : (n : ℕ) → n < cfg0.N → Vec F S1x2048 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩)
  | n + 1, hn =>
    if h0 : (n + 1) % 8 = 0 then
      if h1 : (n + 1) % 8 = 7 then
        False.elim (by omega)
      else
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩)
    else
      if h1 : (n + 1) % 8 = 7 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (scrAt c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (scrAt c n (Nat.lt_of_succ_lt hn))

/-- What the point before `t` left in the scratch (at the very first point: a placeholder nothing consults). -/
abbrev scrPrev (c : Dev nD) (t : Fin cfg0.N) : Vec F S1x2048 .f32 :=
  scrAt V c (t.val - 1) (Nat.lt_of_le_of_lt (Nat.sub_le _ _) t.isLt)

theorem scrAt_A (c : Dev nD) (t : Fin cfg0.N) (h0 : t.val % 8 = 0) (h1 : ¬t.val % 8 = 7) :
    scrAt V c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) := by
  obtain ⟨n, hn⟩ := t
  cases n with
  | zero => exact rfl
  | succ n => exact (dif_pos h0).trans ((dif_neg h1).trans rfl)
theorem scrAt_B (c : Dev nD) (t : Fin cfg0.N) (h0 : ¬t.val % 8 = 0) (h1 : ¬t.val % 8 = 7) :
    scrAt V c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (scrPrev V c t) := by
  obtain ⟨n, hn⟩ := t
  cases n with
  | zero => exact (by exfalso; (try dsimp only at h0); exact absurd (Nat.zero_mod _) h0)
  | succ n => exact (dif_neg h0).trans ((dif_neg h1).trans rfl)
theorem scrAt_C (c : Dev nD) (t : Fin cfg0.N) (h0 : ¬t.val % 8 = 0) (h1 : t.val % 8 = 7) :
    scrAt V c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t) := by
  obtain ⟨n, hn⟩ := t
  cases n with
  | zero => exact (by exfalso; (try dsimp only at h0); exact absurd (Nat.zero_mod _) h0)
  | succ n => exact (dif_neg h0).trans ((dif_pos h1).trans rfl)

/-- What the probabilities' staging buffer holds after point `t`: the case's pieces read back. -/
def out3At (c : Dev nD) (t : Fin cfg0.N) : Vec F S1x256x2048 .f32 :=
  if h0 : t.val % 8 = 0 then
    if h1 : t.val % 8 = 7 then VO0_3.read (Elt F) VO0_3.junk
    else out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t)
  else
    if h1 : t.val % 8 = 7 then out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t)
    else out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (scrPrev V c t)

/-- What the second result's staging buffer holds after point `t`: at a batch's last tile the stored product,
    elsewhere a placeholder nothing consults (the window is idle there). -/
def out4At (c : Dev nD) (t : Fin cfg0.N) : Vec F S1x1x512 .f32 :=
  if h0 : t.val % 8 = 0 then VO0_4.read (Elt F) VO0_4.junk
  else
    if h1 : t.val % 8 = 7 then out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t)
    else VO0_4.read (Elt F) VO0_4.junk

/-! ## The region's invariant -/

/-- Before position `n`: at the first point the launch's invariant (the scratch at anything); afterwards the scratch
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt V c n hn)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (scrAt V c n hn)) ∗ (∃ r, prngReg c r)) := rfl
theorem PhiS_pos (c : Dev nD) (n : ℕ) (h : n ≤ cfg0.N) (hz : n ≠ 0) :
    PhiS V c n h = iprop(iprop(owns (c : Thread nD τ) scM0_0 fullShare (scrAt V c (n - 1) (by omega))) ∗ (∃ r, prngReg c r)) := by
  cases n with
  | zero => exact absurd rfl hz
  | succ n => rfl

/-! ## The pipeline's proof data -/

/-- The two windows on the bf16 copy of `x` each hold half of its read share; the mask is held whole. -/
def qOf : Fin cfg0.W → PosShare TreeShare
  | ⟨0, _⟩ => fullShare.left
  | ⟨1, _⟩ => fullShare.right
  | _ => fullShare

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3At V c t
    | ⟨4, _⟩ => out4At V c t
  Φ t := PhiS V c t.val (Nat.le_of_lt_succ t.isLt)
  q := qOf
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = out3At V c t := by dsimp only [dat]
theorem after0_4 (c : Dev nD) (t : Fin cfg0.N) : (dat V c).after 4 t = out4At V c t := by dsimp only [dat]
theorem before0_0 (c : Dev nD) (t : Fin cfg0.N) (d) : (dat V c).before 0 t d = iblk V c 0 t :=
  before0_of V (dat V c) (A_eq V c 0) (after0_0 V c) t d
theorem before0_1 (c : Dev nD) (t : Fin cfg0.N) (d) : (dat V c).before 1 t d = iblk V c 1 t :=
  before1_of V (dat V c) (A_eq V c 1) (after0_1 V c) t d
theorem before0_2 (c : Dev nD) (t : Fin cfg0.N) (d) : (dat V c).before 2 t d = iblk V c 2 t :=
  before2_of V (dat V c) (A_eq V c 2) (after0_2 V c) t d

end Cert.Kernel.Frame

end
-- ==== Proof.K.Body.lean ====
/-
  The body's obligation at every grid point: the inputs' buffers hold their blocks, the closed forms of the two conditions select the case, the case's run applies, and the invariant takes the scratch back at this point's contents.
-/
import proofs.«126320_j37881611551174_2_alg».proof.Proof.K.Frame

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0_0 t) fullShare ((dat V c).after 0 t) from by
    unfold Dat.leavesExact; rw [liveAt0_0 t], after0_0]
  rw [show (dat V c).leavesExact 1 t = owns (c : Thread nD τ) (ms0_1 t) fullShare ((dat V c).after 1 t) from by
    unfold Dat.leavesExact; rw [liveAt0_1 t], after0_1]
  rw [show (dat V c).leavesExact 2 t = owns (c : Thread nD τ) (ms0_2 t) fullShare ((dat V c).after 2 t) from by
    unfold Dat.leavesExact; rw [liveAt0_2 t], after0_2]
  rw [show (dat V c).leavesExact 3 t = owns (c : Thread nD τ) (ms0_3 t) fullShare ((dat V c).after 3 t) from by
    unfold Dat.leavesExact; rw [liveAt0_3 t], after0_3]
  by_cases h0 : t.val % 8 = 0
  · by_cases h1 : t.val % 8 = 7
    · exfalso; omega
    · rw [Dat.leavesExact_idle (dat V c) 4 t (idleAt0_4 t (fun h => h1 ((hcond0_1 t).mp h))) (noFlush0_4 t (fun h => h1 ((hcond0_1 t).mp h)))]
      rw [scrAt_A V c t h0 h1]
      rw [show out3At V c t = out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) from by
        unfold out3At; rw [dif_pos h0, dif_neg h1]]
      unfold sout0_A out0_A_3; (try dsimp only)
      by_cases hz : t.val = 0
      · rw [PhiS_castSucc V c t, PhiS_zero V c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t)).2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t)).2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
  · by_cases h1 : t.val % 8 = 7
    · rw [show (dat V c).leavesExact 4 t = owns (c : Thread nD τ) (ms0_4 t) fullShare ((dat V c).after 4 t) from by
        unfold Dat.leavesExact; rw [liveAt0_4 t ((hcond0_1 t).mpr h1)], after0_4]
      rw [scrAt_C V c t h0 h1]
      rw [show out3At V c t = out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t) from by
        unfold out3At; rw [dif_neg h0, dif_pos h1]]
      rw [show out4At V c t = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t) from by
        unfold out4At; rw [dif_neg h0, dif_pos h1]]
      unfold sout0_C out0_C_3 out0_C_4; (try dsimp only)
      by_cases hz : t.val = 0
      · exfalso; omega
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk V c 0 t) (iblk V c 1 t) (iblk V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [Dat.leavesExact_idle (dat V c) 4 t (idleAt0_4 t (fun h => h1 ((hcond0_1 t).mp h))) (noFlush0_4 t (fun h => h1 ((hcond0_1 t).mp h)))]
      rw [scrAt_B V c t h0 h1]
      rw [show out3At V c t = out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (scrPrev V c t) from by
        unfold out3At; rw [dif_neg h0, dif_neg h1]]
      unfold sout0_B out0_B_3; (try dsimp only)
      by_cases hz : t.val = 0
      · exfalso; omega
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk V c 0 t) (iblk V c 1 t) (iblk V c 2 t) _).2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scratch back at some contents. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA0_eq]
  iintro ⟨HS0, Hg⟩
  isplitl [HS0]
  · iexists _; iexact HS0
  iexact Hg

end Cert.Kernel.Frame

end
-- ==== Proof.K.Run.lean ====
/-
  The launch: @main is a stretch of host operations (the conversion of x), the kernel region, and a stretch of host operations (the reshape of the second result). The contents of the unscoped buffers are folded through the three segments from the launch memory; the region takes its arrays out of the unscoped buffers — the converted x, read by two windows, split into two half shares — and puts them back at what the write-backs leave. Every weakly fair execution terminates with every unscoped buffer at the fold's last contents.
-/
import proofs.«126320_j37881611551174_2_alg».proof.Proof.K.Body

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)

/-- An input window's array is never written. -/
theorem arrAt_in0 (c : Dev nD) (n : ℕ) : (dat (V1 m ρ) c).arrAt 0 n = V1 m ρ c main_v0 :=
  ((dat (V1 m ρ) c).arrAt_in 0 rfl _).trans (A_eq (V1 m ρ) c 0)
theorem arrAt_in1 (c : Dev nD) (n : ℕ) : (dat (V1 m ρ) c).arrAt 1 n = V1 m ρ c main_v0 :=
  ((dat (V1 m ρ) c).arrAt_in 1 rfl _).trans (A_eq (V1 m ρ) c 1)
theorem arrAt_in2 (c : Dev nD) (n : ℕ) : (dat (V1 m ρ) c).arrAt 2 n = V1 m ρ c main_arg1 :=
  ((dat (V1 m ρ) c).arrAt_in 2 rfl _).trans (A_eq (V1 m ρ) c 2)

/-- The region's exit contents at a window's array: what the window's write-backs leave (two windows on one array
    leave the same contents). -/
theorem W2_arr (c : Dev nD) (w : Fin cfg0.W) :
    W2 m ρ c (Proc.devRef .tc (Pipeline.arrRef spec0 w)) = (dat (V1 m ρ) c).arrAt w cfg0.N := by
  unfold W2 Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dat (V1 m ρ) c).arrAt w' cfg0.N) = (dat (V1 m ρ) c).arrAt w cfg0.N from this _ h.choose_spec
  intro w' e
  have e' : Pipeline.arrRef spec0 w' = Pipeline.arrRef spec0 w := Proc.devRef_injective _ e
  by_cases hww : w' = w
  · subst hww; rfl
  · have key : ∀ w w' : Fin cfg0.W, Pipeline.arrRef spec0 w' = Pipeline.arrRef spec0 w → w' ≠ w → (w = 0 ∧ w' = 1) ∨ (w = 1 ∧ w' = 0) := by decide
    rcases key w w' e' hww with ⟨rfl, rfl⟩ | ⟨rfl, rfl⟩
    · exact (arrAt_in1 m ρ c _).trans (arrAt_in0 m ρ c _).symm
    · exact (arrAt_in0 m ρ c _).trans (arrAt_in1 m ρ c _).symm
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-! ## The region's arrays out of the unscoped buffers, and back -/

section Arrays
variable (V : (c : Dev nD) → (b : Ref sig .tc) → Buf (Elt F) ((c : Thread nD τ).loc b))

/-- The converted `x`, held whole, is two half shares of it: one for each window that reads it. -/
theorem split_v0 (c : Dev nD) : ((((c : Thread nD τ).loc main_v0) ↦{fullShare} V c main_v0 : sProp 𝕄))
    ⊢ iprop((((c : Thread nD τ).loc main_v0) ↦{fullShare.left} V c main_v0) ∗ (((c : Thread nD τ).loc main_v0) ↦{fullShare.right} V c main_v0)) :=
  (pointsTo_share (PosShare.mem_left_op_right fullShare)).1
theorem join_v0 (c : Dev nD) : (iprop((((c : Thread nD τ).loc main_v0) ↦{fullShare.left} V c main_v0) ∗ (((c : Thread nD τ).loc main_v0) ↦{fullShare.right} V c main_v0)) : sProp 𝕄)
    ⊢ (((c : Thread nD τ).loc main_v0) ↦{fullShare} V c main_v0) :=
  (pointsTo_share (PosShare.mem_left_op_right fullShare)).2

/-- ENTRY: the four buffers behind the five windows' arrays, each whole at the full share, are the pipeline's arrays
    at the entry contents. -/
theorem arrays_of_bufs (c : Dev nD) :
    (Pipeline.arrBufs spec0 c (V c) : sProp 𝕄) ⊢ (dat V c).arrays ((dat V c).arrAt · 0) := by
  unfold Pipeline.arrBufs Dat.arrays
  rw [bigSep_W0, BI.bigSep_eq_bigSepL_of_eq [main_v0, main_arg1, main_v1_0, main_v1_1] (by decide) (by decide)]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  rw [s0, s1, s2, s3, s4, (arr_whole0 0).set_eq_univ, (arr_whole0 2).set_eq_univ, (arr_whole0 3).set_eq_univ, (arr_whole0 4).set_eq_univ]
  refine (show iprop((((c : Thread nD τ).loc main_v0) ↦{fullShare} V c main_v0) ∗ (((c : Thread nD τ).loc main_arg1) ↦{fullShare} V c main_arg1) ∗ (((c : Thread nD τ).loc main_v1_0) ↦{fullShare} V c main_v1_0) ∗ (((c : Thread nD τ).loc main_v1_1) ↦{fullShare} V c main_v1_1)) ⊢ _ from ?_)
  iintro ⟨Hv0, Ha1, Ho0, Ho1⟩
  have hsp := split_v0 V c
  ihave Hs := hsp $$ Hv0
  icases Hs with ⟨Hl, Hr⟩
  isplitl [Hl]; · iexact Hl
  isplitl [Hr]; · iexact Hr
  isplitl [Ha1]; · iexact Ha1
  isplitl [Ho0]; · iexact Ho0
  iexact Ho1

/-- EXIT: the pipeline's arrays at contents `G` that agree with a valuation `V'` are the four buffers at `V'`. -/
theorem bufs_of_arrays (c : Dev nD) (V' : (b : Ref sig .tc) → Buf (Elt F) ((c : Thread nD τ).loc b))
    (G : (w : Fin cfg0.W) → Buf (Elt F) ((cfg0.win w).arr.view.loc (c : Thread nD τ)))
    (h0 : G 0 = V' main_v0) (h1 : G 1 = V' main_v0) (h2 : G 2 = V' main_arg1) (h3 : G 3 = V' main_v1_0) (h4 : G 4 = V' main_v1_1) :
    (dat V c).arrays G ⊢ (Pipeline.arrBufs spec0 c V' : sProp 𝕄) := by
  unfold Pipeline.arrBufs Dat.arrays
  rw [bigSep_W0, BI.bigSep_eq_bigSepL_of_eq [main_v0, main_arg1, main_v1_0, main_v1_1] (by decide) (by decide)]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  rw [s0, s1, s2, s3, s4, (arr_whole0 0).set_eq_univ, (arr_whole0 2).set_eq_univ, (arr_whole0 3).set_eq_univ, (arr_whole0 4).set_eq_univ, h0, h1, h2, h3, h4]
  refine (show _ ⊢ iprop((((c : Thread nD τ).loc main_v0) ↦{fullShare} V' main_v0) ∗ (((c : Thread nD τ).loc main_arg1) ↦{fullShare} V' main_arg1) ∗ (((c : Thread nD τ).loc main_v1_0) ↦{fullShare} V' main_v1_0) ∗ (((c : Thread nD τ).loc main_v1_1) ↦{fullShare} V' main_v1_1)) from ?_)
  iintro ⟨Hl, Hr, Ha1, Ho0, Ho1⟩
  isplitl [Hl Hr]
  · iapply (pointsTo_share (PosShare.mem_left_op_right fullShare)).2
    isplitl [Hl]; · iexact Hl
    iexact Hr
  isplitl [Ha1]; · iexact Ha1
  isplitl [Ho0]; · iexact Ho0
  iexact Ho1

end Arrays

theorem arrays_of_unscopedBufs (c : Dev nD) :
    (unscopedBufs c (V1 m ρ c) : sProp 𝕄) ⊢ iprop((dat (V1 m ρ) c).arrays ((dat (V1 m ρ) c).arrAt · 0) ∗ Pipeline.unscopedRest spec0 c (V1 m ρ c)) := by
  rw [Pipeline.unscopedBufs_split₀ cfgs 0 winFacts₀0.arr_unscoped c (V1 m ρ c)]
  exact sep_mono (arrays_of_bufs (V1 m ρ) c) .rfl

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem unscopedBufs_of_arrays (c : Dev nD) :
    iprop((dat (V1 m ρ) c).arrays ((dat (V1 m ρ) c).arrAt · cfg0.N) ∗ Pipeline.unscopedRest spec0 c (V1 m ρ c)) ⊢ (unscopedBufs c (V2 m ρ c) : sProp 𝕄) := by
  rw [Pipeline.unscopedBufs_split₀ cfgs 0 winFacts₀0.arr_unscoped c (V2 m ρ c)]
  refine sep_mono (bufs_of_arrays (V1 m ρ) c (V2 m ρ c) _ (W2_arr m ρ c 0).symm (W2_arr m ρ c 1).symm (W2_arr m ρ c 2).symm (W2_arr m ρ c 3).symm (W2_arr m ρ c 4).symm) (Entails.of_eq ?_)
  unfold Pipeline.unscopedRest
  exact bigSep_congr fun b hb => by rw [hrest0 m ρ c b (Finset.mem_sdiff.mp hb).2]

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, Finset.mem_singleton]
          exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.unary_writes, Finset.mem_singleton]
          exact StableHlo.devRef_ne_of_ne (by decide)))).trans rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := (W2_arr m ρ c 2).trans (arrAt_in2 m ρ c _)
    _ = m ((c : Thread nD τ).loc main_arg1) := W1_main_arg1 m ρ c

/-- The first result's array is not touched by the reshape after the region. -/
theorem W3_main_v1_0 (c : Dev nD) : W3 m ρ c (Proc.devRef .tc main_v1_0) = (dat (V1 m ρ) c).arrAt 3 cfg0.N :=
  (StableHlo.after_of_forall_not_mem (b := Proc.devRef .tc main_v1_0) _ _ (List.forall_iff_forall_mem.mp (by
          simp only [hostOps1, List.Forall, StableHlo.reshape_writes, Finset.mem_singleton]
          exact StableHlo.devRef_ne_of_ne (by decide)))).trans (W2_arr m ρ c 3)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh := hin (V1 m ρ) c
    refine BIBase.Entails.trans ?_ hh
    unfold Pipeline.ΦA
    iintro ⟨Hp, -, Hr⟩
    isplitl [Hr]; · iexact Hr
    iexact Hp
  hout c := by
    refine (hout (V1 m ρ) c).trans ?_
    rw [Pipeline.ownSems0_none]; unfold Pipeline.ΦA
    iintro ⟨Hr, Hp⟩
    isplitl [Hp]; · iexact Hp
    isplitr; · iempintro
    iexact Hr
  hexit c := by
    have hjoin := unscopedBufs_of_arrays m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      refine (show iprop(StableHlo.held (c : Thread nD τ) (Pipeline.ucRefs τ sig) (W3 m ρ c) ∗ R c) ⊢ _ from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Frame

end
-- ==== Proof.KI.Base.lean ====
/-
  The attention kernel's run, point by point: what the shared definitions are. The grid has 64 points, point t
  being batch t / 8 and query tile t % 8. The body zeroes the column-sum scratch at the first tile of a batch
  (t % 8 = 0), adds the tile's column sums of the probabilities at every tile, and at the last tile (t % 8 = 7)
  multiplies the accumulated column sums with the key slab into the second result's block. Here: the contents V of
  the buffers when the region is entered, each window's block at a point, the two conditions in closed form, where
  the second result's window is idle, and the staging and scratch memrefs.
-/
import proofs.«126320_j37881611551174_2_alg».proof.Proof.Gen.KernelIdeal.Launch
import proofs.«126320_j37881611551174_2_alg».proof.Proof.Gen.KernelIdeal.Skeleton
import proofs.«126320_j37881611551174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (unfetched, the block
    index has not moved). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first query tile of its batch": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last query tile of its batch": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a batch's last tile the second result's window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a batch's last tile it is live. -/
theorem liveAt0_4 : ∀ t : Fin cfg0.N, cond0_1 (grid0.coords t) → cfg0.idle 4 (grid0.coords t) = false := by decide +kernel

/-! ## The memrefs the body is called with -/

abbrev VO0_3 : View sig .tc .vmem S1x256x2048 .f32 := (Memref.whole cc0_stg3_0 : Memref sig .tc .vmem S1x256x2048 .f32).view
abbrev VO0_4 : View sig .tc .vmem S1x1x512 .f32 := (Memref.whole cc0_stg4_0 : Memref sig .tc .vmem S1x1x512 .f32).view
abbrev ms0_0 (t : Fin cfg0.N) : Memref sig .tc .vmem S1x256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
/-- The column-sum scratch: a whole scoped buffer of the kernel's own. -/
abbrev scM0_0 : Memref sig .tc .vmem S1x2048 .f32 := Memref.whole cc0_scratch0
abbrev VS0_0 : View sig .tc .vmem S1x2048 .f32 := scM0_0.view

/-- The region's invariant as the launch hands it over: the scratch owned at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.KI.RunA.lean ====
/-
  The body's run at the first query tile of a batch: the scratch is zeroed, then the tile's column sums are added to it; the probabilities' block is stored; the second result's buffer is not touched.
-/
import proofs.«126320_j37881611551174_2_alg».proof.Proof.KI.Base

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At a first tile (first condition true, second false): from whole staging memrefs — the three inputs at their
    contents, the probabilities' buffer and the scratch at anything, the second result's buffer at contents handed
    back untouched — the body runs to the continuation with the inputs as they were, and the probabilities' buffer
    and the scratch holding the pieces its stores wrote (the pieces are the witness the run finds). -/
noncomputable def kernelRun0_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i)
    (x0 : Vec F S1x256x512 .bf16) (x1 : Vec F S1x2048x512 .bf16) (x2 : Vec F S1x256x2048 .i32) :
    Σ' (L3 : List (View.Piece (Elt F) S1x256x2048 .f32)), { LS0 : List (View.Piece (Elt F) S1x2048 .f32) //
      ∀ (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.Frame

end
-- ==== Proof.KI.RunB.lean ====
/-
  The body's run at a middle query tile of a batch: the tile's column sums are added to the scratch as the tile before left it; the probabilities' block is stored; the second result's buffer is not touched.
-/
import proofs.«126320_j37881611551174_2_alg».proof.Proof.KI.RunA

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At a middle tile (both conditions false): the scratch enters at the contents `xs0` the tile before left. -/
noncomputable def kernelRun0_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i)
    (x0 : Vec F S1x256x512 .bf16) (x1 : Vec F S1x2048x512 .bf16) (x2 : Vec F S1x256x2048 .i32) (xs0 : Vec F S1x2048 .f32) :
    Σ' (L3 : List (View.Piece (Elt F) S1x256x2048 .f32)), { LS0 : List (View.Piece (Elt F) S1x2048 .f32) //
      ∀ (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.Frame

end
-- ==== Proof.KI.RunC.lean ====
/-
  The body's run at the last query tile of a batch: the tile's column sums are added to the scratch, and the accumulated column sums times the key slab are stored into the second result's buffer; the probabilities' block is stored.
-/
import proofs.«126320_j37881611551174_2_alg».proof.Proof.KI.RunB

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At a last tile (first condition false, second true): the scratch enters at the contents `xs0` the tile before
    left; the second result's buffer enters at anything and leaves with the pieces the store wrote. -/
noncomputable def kernelRun0_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i)
    (x0 : Vec F S1x256x512 .bf16) (x1 : Vec F S1x2048x512 .bf16) (x2 : Vec F S1x256x2048 .i32) (xs0 : Vec F S1x2048 .f32) :
    Σ' (L3 : List (View.Piece (Elt F) S1x256x2048 .f32)) (L4 : List (View.Piece (Elt F) S1x1x512 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Frame

end
-- ==== Proof.KI.Frame.lean ====
/-
  What the staging buffers and the scratch hold after each grid point, the proof data of the pipeline, and the body's obligation at every point: the scratch after a point is the case's run over what the point before left (a recursion on the point), the probabilities' buffer and the second result's buffer are the case's pieces read back.
-/
import proofs.«126320_j37881611551174_2_alg».proof.Proof.KI.RunC

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) (y : S1x256x2048.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x256x2048.size (by sl_kernel_rfl) y
def out0_A_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) : Vec F S1x256x2048 .f32 :=
  VO0_3.read (Elt F) (VO0_3.writes (Elt F) VO0_3.junk (kernelRun0_A c i arg2 harg2 arg3 harg3 arg4 harg4 arg5 harg5 arg6 harg6 arg7 harg7 hc0 hc1 x0 x1 x2).1)
theorem scover0_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) (y : S1x2048.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1x2048.size (by sl_kernel_rfl) y
def sout0_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) : Vec F S1x2048 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

theorem cover0_B_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) (y : S1x256x2048.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S1x256x2048.size (by sl_kernel_rfl) y
def out0_B_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) : Vec F S1x256x2048 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
theorem scover0_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) (y : S1x2048.Idx) :
    ∃ pc ∈ (kernelRun0_B c i arg2 harg2 arg3 harg3 arg4 harg4 arg5 harg5 arg6 harg6 arg7 harg7 hc0 hc1 x0 x1 x2 xs0).2.1, y ∈ pc.1.set :=
  View.cover_of_tiledL (kernelRun0_B c i arg2 harg2 arg3 harg3 arg4 harg4 arg5 harg5 arg6 harg6 arg7 harg7 hc0 hc1 x0 x1 x2 xs0).2.1 S1x2048.size (by sl_kernel_rfl) y
def sout0_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.1)

theorem cover0_C_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) (y : S1x256x2048.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x256x2048.size (by sl_kernel_rfl) y
def out0_C_3 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) : Vec F S1x256x2048 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
theorem cover0_C_4 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) (y : S1x1x512.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x1x512.size (by sl_kernel_rfl) y
def out0_C_4 (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) : Vec F S1x1x512 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
theorem scover0_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) (y : S1x2048.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1x2048.size (by sl_kernel_rfl) y
def sout0_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-! ## The scratch after each point -/

/-- THE ACCUMULATION: what the column-sum scratch holds after the body at position `n` — at a batch's first tile
    the first case's run, at a later tile the case's run over what position `n - 1` left. -/
def scrAt (c : Dev nD) : (n : ℕ) → n < cfg0.N → Vec F S1x2048 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩)
  | n + 1, hn =>
    if h0 : (n + 1) % 8 = 0 then
      if h1 : (n + 1) % 8 = 7 then
        False.elim (by omega)
      else
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩)
    else
      if h1 : (n + 1) % 8 = 7 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (scrAt c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (scrAt c n (Nat.lt_of_succ_lt hn))

/-- What the point before `t` left in the scratch (at the very first point: a placeholder nothing consults). -/
abbrev scrPrev (c : Dev nD) (t : Fin cfg0.N) : Vec F S1x2048 .f32 :=
  scrAt V c (t.val - 1) (Nat.lt_of_le_of_lt (Nat.sub_le _ _) t.isLt)

theorem scrAt_A (c : Dev nD) (t : Fin cfg0.N) (h0 : t.val % 8 = 0) (h1 : ¬t.val % 8 = 7) :
    scrAt V c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) := by
  obtain ⟨n, hn⟩ := t
  cases n with
  | zero => exact rfl
  | succ n => exact (dif_pos h0).trans ((dif_neg h1).trans rfl)
theorem scrAt_B (c : Dev nD) (t : Fin cfg0.N) (h0 : ¬t.val % 8 = 0) (h1 : ¬t.val % 8 = 7) :
    scrAt V c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (scrPrev V c t) := by
  obtain ⟨n, hn⟩ := t
  cases n with
  | zero => exact (by exfalso; (try dsimp only at h0); exact absurd (Nat.zero_mod _) h0)
  | succ n => exact (dif_neg h0).trans ((dif_neg h1).trans rfl)
theorem scrAt_C (c : Dev nD) (t : Fin cfg0.N) (h0 : ¬t.val % 8 = 0) (h1 : t.val % 8 = 7) :
    scrAt V c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t) := by
  obtain ⟨n, hn⟩ := t
  cases n with
  | zero => exact (by exfalso; (try dsimp only at h0); exact absurd (Nat.zero_mod _) h0)
  | succ n => exact (dif_neg h0).trans ((dif_pos h1).trans rfl)

/-- What the probabilities' staging buffer holds after point `t`: the case's pieces read back. -/
def out3At (c : Dev nD) (t : Fin cfg0.N) : Vec F S1x256x2048 .f32 :=
  if h0 : t.val % 8 = 0 then
    if h1 : t.val % 8 = 7 then VO0_3.read (Elt F) VO0_3.junk
    else out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t)
  else
    if h1 : t.val % 8 = 7 then out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t)
    else out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (scrPrev V c t)

/-- What the second result's staging buffer holds after point `t`: at a batch's last tile the stored product,
    elsewhere a placeholder nothing consults (the window is idle there). -/
def out4At (c : Dev nD) (t : Fin cfg0.N) : Vec F S1x1x512 .f32 :=
  if h0 : t.val % 8 = 0 then VO0_4.read (Elt F) VO0_4.junk
  else
    if h1 : t.val % 8 = 7 then out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t)
    else VO0_4.read (Elt F) VO0_4.junk

/-! ## The region's invariant -/

/-- Before position `n`: at the first point the launch's invariant (the scratch at anything); afterwards the scratch
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt V c n hn)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (scrAt V c n hn)) ∗ (∃ r, prngReg c r)) := rfl
theorem PhiS_pos (c : Dev nD) (n : ℕ) (h : n ≤ cfg0.N) (hz : n ≠ 0) :
    PhiS V c n h = iprop(iprop(owns (c : Thread nD τ) scM0_0 fullShare (scrAt V c (n - 1) (by omega))) ∗ (∃ r, prngReg c r)) := by
  cases n with
  | zero => exact absurd rfl hz
  | succ n => rfl

/-! ## The pipeline's proof data -/

/-- The two windows on the bf16 copy of `x` each hold half of its read share; the mask is held whole. -/
def qOf : Fin cfg0.W → PosShare TreeShare
  | ⟨0, _⟩ => fullShare.left
  | ⟨1, _⟩ => fullShare.right
  | _ => fullShare

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3At V c t
    | ⟨4, _⟩ => out4At V c t
  Φ t := PhiS V c t.val (Nat.le_of_lt_succ t.isLt)
  q := qOf
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = out3At V c t := by dsimp only [dat]
theorem after0_4 (c : Dev nD) (t : Fin cfg0.N) : (dat V c).after 4 t = out4At V c t := by dsimp only [dat]
theorem before0_0 (c : Dev nD) (t : Fin cfg0.N) (d) : (dat V c).before 0 t d = iblk V c 0 t :=
  before0_of V (dat V c) (A_eq V c 0) (after0_0 V c) t d
theorem before0_1 (c : Dev nD) (t : Fin cfg0.N) (d) : (dat V c).before 1 t d = iblk V c 1 t :=
  before1_of V (dat V c) (A_eq V c 1) (after0_1 V c) t d
theorem before0_2 (c : Dev nD) (t : Fin cfg0.N) (d) : (dat V c).before 2 t d = iblk V c 2 t :=
  before2_of V (dat V c) (A_eq V c 2) (after0_2 V c) t d

end Cert.KernelIdeal.Frame

end
-- ==== Proof.KI.Body.lean ====
/-
  The body's obligation at every grid point: the inputs' buffers hold their blocks, the closed forms of the two conditions select the case, the case's run applies, and the invariant takes the scratch back at this point's contents.
-/
import proofs.«126320_j37881611551174_2_alg».proof.Proof.KI.Frame

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0_0 t) fullShare ((dat V c).after 0 t) from by
    unfold Dat.leavesExact; rw [liveAt0_0 t], after0_0]
  rw [show (dat V c).leavesExact 1 t = owns (c : Thread nD τ) (ms0_1 t) fullShare ((dat V c).after 1 t) from by
    unfold Dat.leavesExact; rw [liveAt0_1 t], after0_1]
  rw [show (dat V c).leavesExact 2 t = owns (c : Thread nD τ) (ms0_2 t) fullShare ((dat V c).after 2 t) from by
    unfold Dat.leavesExact; rw [liveAt0_2 t], after0_2]
  rw [show (dat V c).leavesExact 3 t = owns (c : Thread nD τ) (ms0_3 t) fullShare ((dat V c).after 3 t) from by
    unfold Dat.leavesExact; rw [liveAt0_3 t], after0_3]
  by_cases h0 : t.val % 8 = 0
  · by_cases h1 : t.val % 8 = 7
    · exfalso; omega
    · rw [Dat.leavesExact_idle (dat V c) 4 t (idleAt0_4 t (fun h => h1 ((hcond0_1 t).mp h))) (noFlush0_4 t (fun h => h1 ((hcond0_1 t).mp h)))]
      rw [scrAt_A V c t h0 h1]
      rw [show out3At V c t = out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) from by
        unfold out3At; rw [dif_pos h0, dif_neg h1]]
      unfold sout0_A out0_A_3; (try dsimp only)
      by_cases hz : t.val = 0
      · rw [PhiS_castSucc V c t, PhiS_zero V c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t)).2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk V c 0 t) (iblk V c 1 t) (iblk V c 2 t)).2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
  · by_cases h1 : t.val % 8 = 7
    · rw [show (dat V c).leavesExact 4 t = owns (c : Thread nD τ) (ms0_4 t) fullShare ((dat V c).after 4 t) from by
        unfold Dat.leavesExact; rw [liveAt0_4 t ((hcond0_1 t).mpr h1)], after0_4]
      rw [scrAt_C V c t h0 h1]
      rw [show out3At V c t = out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t) from by
        unfold out3At; rw [dif_neg h0, dif_pos h1]]
      rw [show out4At V c t = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (scrPrev V c t) from by
        unfold out4At; rw [dif_neg h0, dif_pos h1]]
      unfold sout0_C out0_C_3 out0_C_4; (try dsimp only)
      by_cases hz : t.val = 0
      · exfalso; omega
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk V c 0 t) (iblk V c 1 t) (iblk V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [Dat.leavesExact_idle (dat V c) 4 t (idleAt0_4 t (fun h => h1 ((hcond0_1 t).mp h))) (noFlush0_4 t (fun h => h1 ((hcond0_1 t).mp h)))]
      rw [scrAt_B V c t h0 h1]
      rw [show out3At V c t = out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (scrPrev V c t) from by
        unfold out3At; rw [dif_neg h0, dif_neg h1]]
      unfold sout0_B out0_B_3; (try dsimp only)
      by_cases hz : t.val = 0
      · exfalso; omega
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk V c 0 t) (iblk V c 1 t) (iblk V c 2 t) _).2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scratch back at some contents. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl, PhiS_pos V c _ _ ht, PhiA0_eq]
  iintro ⟨HS0, Hg⟩
  isplitl [HS0]
  · iexists _; iexact HS0
  iexact Hg

end Cert.KernelIdeal.Frame

end
-- ==== Proof.KI.Run.lean ====
/-
  The launch: @main is a stretch of host operations (the conversion of x), the kernel region, and a stretch of host operations (the reshape of the second result). The contents of the unscoped buffers are folded through the three segments from the launch memory; the region takes its arrays out of the unscoped buffers — the converted x, read by two windows, split into two half shares — and puts them back at what the write-backs leave. Every weakly fair execution terminates with every unscoped buffer at the fold's last contents.
-/
import proofs.«126320_j37881611551174_2_alg».proof.Proof.KI.Body

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)

/-- An input window's array is never written. -/
theorem arrAt_in0 (c : Dev nD) (n : ℕ) : (dat (V1 m ρ) c).arrAt 0 n = V1 m ρ c main_v0 :=
  ((dat (V1 m ρ) c).arrAt_in 0 rfl _).trans (A_eq (V1 m ρ) c 0)
theorem arrAt_in1 (c : Dev nD) (n : ℕ) : (dat (V1 m ρ) c).arrAt 1 n = V1 m ρ c main_v0 :=
  ((dat (V1 m ρ) c).arrAt_in 1 rfl _).trans (A_eq (V1 m ρ) c 1)
theorem arrAt_in2 (c : Dev nD) (n : ℕ) : (dat (V1 m ρ) c).arrAt 2 n = V1 m ρ c main_arg1 :=
  ((dat (V1 m ρ) c).arrAt_in 2 rfl _).trans (A_eq (V1 m ρ) c 2)

/-- The region's exit contents at a window's array: what the window's write-backs leave (two windows on one array
    leave the same contents). -/
theorem W2_arr (c : Dev nD) (w : Fin cfg0.W) :
    W2 m ρ c (Proc.devRef .tc (Pipeline.arrRef spec0 w)) = (dat (V1 m ρ) c).arrAt w cfg0.N := by
  unfold W2 Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dat (V1 m ρ) c).arrAt w' cfg0.N) = (dat (V1 m ρ) c).arrAt w cfg0.N from this _ h.choose_spec
  intro w' e
  have e' : Pipeline.arrRef spec0 w' = Pipeline.arrRef spec0 w := Proc.devRef_injective _ e
  by_cases hww : w' = w
  · subst hww; rfl
  · have key : ∀ w w' : Fin cfg0.W, Pipeline.arrRef spec0 w' = Pipeline.arrRef spec0 w → w' ≠ w → (w = 0 ∧ w' = 1) ∨ (w = 1 ∧ w' = 0) := by decide
    rcases key w w' e' hww with ⟨rfl, rfl⟩ | ⟨rfl, rfl⟩
    · exact (arrAt_in1 m ρ c _).trans (arrAt_in0 m ρ c _).symm
    · exact (arrAt_in0 m ρ c _).trans (arrAt_in1 m ρ c _).symm
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-! ## The region's arrays out of the unscoped buffers, and back -/

section Arrays
variable (V : (c : Dev nD) → (b : Ref sig .tc) → Buf (Elt F) ((c : Thread nD τ).loc b))

/-- The converted `x`, held whole, is two half shares of it: one for each window that reads it. -/
theorem split_v0 (c : Dev nD) : ((((c : Thread nD τ).loc main_v0) ↦{fullShare} V c main_v0 : sProp 𝕄))
    ⊢ iprop((((c : Thread nD τ).loc main_v0) ↦{fullShare.left} V c main_v0) ∗ (((c : Thread nD τ).loc main_v0) ↦{fullShare.right} V c main_v0)) :=
  (pointsTo_share (PosShare.mem_left_op_right fullShare)).1
theorem join_v0 (c : Dev nD) : (iprop((((c : Thread nD τ).loc main_v0) ↦{fullShare.left} V c main_v0) ∗ (((c : Thread nD τ).loc main_v0) ↦{fullShare.right} V c main_v0)) : sProp 𝕄)
    ⊢ (((c : Thread nD τ).loc main_v0) ↦{fullShare} V c main_v0) :=
  (pointsTo_share (PosShare.mem_left_op_right fullShare)).2

/-- ENTRY: the four buffers behind the five windows' arrays, each whole at the full share, are the pipeline's arrays
    at the entry contents. -/
theorem arrays_of_bufs (c : Dev nD) :
    (Pipeline.arrBufs spec0 c (V c) : sProp 𝕄) ⊢ (dat V c).arrays ((dat V c).arrAt · 0) := by
  unfold Pipeline.arrBufs Dat.arrays
  rw [bigSep_W0, BI.bigSep_eq_bigSepL_of_eq [main_v0, main_arg1, main_v1_0, main_v1_1] (by decide) (by decide)]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  rw [s0, s1, s2, s3, s4, (arr_whole0 0).set_eq_univ, (arr_whole0 2).set_eq_univ, (arr_whole0 3).set_eq_univ, (arr_whole0 4).set_eq_univ]
  refine (show iprop((((c : Thread nD τ).loc main_v0) ↦{fullShare} V c main_v0) ∗ (((c : Thread nD τ).loc main_arg1) ↦{fullShare} V c main_arg1) ∗ (((c : Thread nD τ).loc main_v1_0) ↦{fullShare} V c main_v1_0) ∗ (((c : Thread nD τ).loc main_v1_1) ↦{fullShare} V c main_v1_1)) ⊢ _ from ?_)
  iintro ⟨Hv0, Ha1, Ho0, Ho1⟩
  have hsp := split_v0 V c
  ihave Hs := hsp $$ Hv0
  icases Hs with ⟨Hl, Hr⟩
  isplitl [Hl]; · iexact Hl
  isplitl [Hr]; · iexact Hr
  isplitl [Ha1]; · iexact Ha1
  isplitl [Ho0]; · iexact Ho0
  iexact Ho1

/-- EXIT: the pipeline's arrays at contents `G` that agree with a valuation `V'` are the four buffers at `V'`. -/
theorem bufs_of_arrays (c : Dev nD) (V' : (b : Ref sig .tc) → Buf (Elt F) ((c : Thread nD τ).loc b))
    (G : (w : Fin cfg0.W) → Buf (Elt F) ((cfg0.win w).arr.view.loc (c : Thread nD τ)))
    (h0 : G 0 = V' main_v0) (h1 : G 1 = V' main_v0) (h2 : G 2 = V' main_arg1) (h3 : G 3 = V' main_v1_0) (h4 : G 4 = V' main_v1_1) :
    (dat V c).arrays G ⊢ (Pipeline.arrBufs spec0 c V' : sProp 𝕄) := by
  unfold Pipeline.arrBufs Dat.arrays
  rw [bigSep_W0, BI.bigSep_eq_bigSepL_of_eq [main_v0, main_arg1, main_v1_0, main_v1_1] (by decide) (by decide)]
  have s0 : (dat V c).share 0 = fullShare.left := rfl
  have s1 : (dat V c).share 1 = fullShare.right := rfl
  have s2 : (dat V c).share 2 = fullShare := rfl
  have s3 : (dat V c).share 3 = fullShare := rfl
  have s4 : (dat V c).share 4 = fullShare := rfl
  rw [s0, s1, s2, s3, s4, (arr_whole0 0).set_eq_univ, (arr_whole0 2).set_eq_univ, (arr_whole0 3).set_eq_univ, (arr_whole0 4).set_eq_univ, h0, h1, h2, h3, h4]
  refine (show _ ⊢ iprop((((c : Thread nD τ).loc main_v0) ↦{fullShare} V' main_v0) ∗ (((c : Thread nD τ).loc main_arg1) ↦{fullShare} V' main_arg1) ∗ (((c : Thread nD τ).loc main_v1_0) ↦{fullShare} V' main_v1_0) ∗ (((c : Thread nD τ).loc main_v1_1) ↦{fullShare} V' main_v1_1)) from ?_)
  iintro ⟨Hl, Hr, Ha1, Ho0, Ho1⟩
  isplitl [Hl Hr]
  · iapply (pointsTo_share (PosShare.mem_left_op_right fullShare)).2
    isplitl [Hl]; · iexact Hl
    iexact Hr
  isplitl [Ha1]; · iexact Ha1
  isplitl [Ho0]; · iexact Ho0
  iexact Ho1

end Arrays

theorem arrays_of_unscopedBufs (c : Dev nD) :
    (unscopedBufs c (V1 m ρ c) : sProp 𝕄) ⊢ iprop((dat (V1 m ρ) c).arrays ((dat (V1 m ρ) c).arrAt · 0) ∗ Pipeline.unscopedRest spec0 c (V1 m ρ c)) := by
  rw [Pipeline.unscopedBufs_split₀ cfgs 0 winFacts₀0.arr_unscoped c (V1 m ρ c)]
  exact sep_mono (arrays_of_bufs (V1 m ρ) c) .rfl

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem unscopedBufs_of_arrays (c : Dev nD) :
    iprop((dat (V1 m ρ) c).arrays ((dat (V1 m ρ) c).arrAt · cfg0.N) ∗ Pipeline.unscopedRest spec0 c (V1 m ρ c)) ⊢ (unscopedBufs c (V2 m ρ c) : sProp 𝕄) := by
  rw [Pipeline.unscopedBufs_split₀ cfgs 0 winFacts₀0.arr_unscoped c (V2 m ρ c)]
  refine sep_mono (bufs_of_arrays (V1 m ρ) c (V2 m ρ c) _ (W2_arr m ρ c 0).symm (W2_arr m ρ c 1).symm (W2_arr m ρ c 2).symm (W2_arr m ρ c 3).symm (W2_arr m ρ c 4).symm) (Entails.of_eq ?_)
  unfold Pipeline.unscopedRest
  exact bigSep_congr fun b hb => by rw [hrest0 m ρ c b (Finset.mem_sdiff.mp hb).2]

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, Finset.mem_singleton]
          exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.unary_writes, Finset.mem_singleton]
          exact StableHlo.devRef_ne_of_ne (by decide)))).trans rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W1 m ρ c (Proc.devRef .tc main_arg1) := (W2_arr m ρ c 2).trans (arrAt_in2 m ρ c _)
    _ = m ((c : Thread nD τ).loc main_arg1) := W1_main_arg1 m ρ c

/-- The first result's array is not touched by the reshape after the region. -/
theorem W3_main_v1_0 (c : Dev nD) : W3 m ρ c (Proc.devRef .tc main_v1_0) = (dat (V1 m ρ) c).arrAt 3 cfg0.N :=
  (StableHlo.after_of_forall_not_mem (b := Proc.devRef .tc main_v1_0) _ _ (List.forall_iff_forall_mem.mp (by
          simp only [hostOps1, List.Forall, StableHlo.reshape_writes, Finset.mem_singleton]
          exact StableHlo.devRef_ne_of_ne (by decide)))).trans (W2_arr m ρ c 3)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscopedBufs m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh := hin (V1 m ρ) c
    refine BIBase.Entails.trans ?_ hh
    unfold Pipeline.ΦA
    iintro ⟨Hp, -, Hr⟩
    isplitl [Hr]; · iexact Hr
    iexact Hp
  hout c := by
    refine (hout (V1 m ρ) c).trans ?_
    rw [Pipeline.ownSems0_none]; unfold Pipeline.ΦA
    iintro ⟨Hr, Hp⟩
    isplitl [Hp]; · iexact Hp
    isplitr; · iempintro
    iexact Hr
  hexit c := by
    have hjoin := unscopedBufs_of_arrays m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      refine (show iprop(StableHlo.held (c : Thread nD τ) (Pipeline.ucRefs τ sig) (W3 m ρ c) ∗ R c) ⊢ _ from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Frame

end
-- ==== Proof.KI.Pieces.lean ====
/-
  What the found pieces are, in the body's own arithmetic: each case's run leaves the probabilities' buffer at the softmax payload of the three input blocks, the scratch at the entering column sums plus the tile's column sums (from zeros at a batch's first tile), and at a batch's last tile the second result's buffer at the product of the accumulated column sums with the key slab.
-/
import proofs.«126320_j37881611551174_2_alg».proof.Proof.KI.Run
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile -/

theorem sout_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) :
    sout0_B c i arg2 harg2 arg3 harg3 arg4 harg4 arg5 harg5 arg6 harg6 arg7 harg7 hc0 hc1 x0 x1 x2 xs0 = k0_pay1 xs0 (k0_pay7 x0 x1 x2) := by
  unfold sout0_B
  rw [View.read_writes_eq_canon _ _ _ (scover0_B c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

theorem out3_B (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : ¬cond0_1 i) (x0 : Vec F S1x256x512 .bf16) (x1 : Vec F S1x2048x512 .bf16) (x2 : Vec F S1x256x2048 .i32) (xs0 : Vec F S1x2048 .f32) :
    out0_B_3 c i arg2 harg2 arg3 harg3 arg4 harg4 arg5 harg5 arg6 harg6 arg7 harg7 hc0 hc1 x0 x1 x2 xs0 = k0_pay6 x0 x1 x2 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

/-! ## A last tile -/

theorem sout_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) :
    sout0_C c i arg2 harg2 arg3 harg3 arg4 harg4 arg5 harg5 arg6 harg6 arg7 harg7 hc0 hc1 x0 x1 x2 xs0 = k0_pay1 xs0 (k0_pay7 x0 x1 x2) := by
  unfold sout0_C
  rw [View.read_writes_eq_canon _ _ _ (scover0_C c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

theorem out3_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) :
    out0_C_3 c i arg2 harg2 arg3 harg3 arg4 harg4 arg5 harg5 arg6 harg6 arg7 harg7 hc0 hc1 x0 x1 x2 xs0 = k0_pay6 x0 x1 x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

theorem out4_C (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : ¬cond0_0 i) (hc1 : cond0_1 i) (x0 : Vec F S1x256x512 .bf16) (x1 : Vec F S1x2048x512 .bf16) (x2 : Vec F S1x256x2048 .i32) (xs0 : Vec F S1x2048 .f32) :
    out0_C_4 c i arg2 harg2 arg3 harg3 arg4 harg4 arg5 harg5 arg6 harg6 arg7 harg7 hc0 hc1 x0 x1 x2 xs0 = k0_pay2 (k0_pay4 x1) (k0_pay1 xs0 (k0_pay7 x0 x1 x2)) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz3, View.readCov_unit_zero (S := S1x2048) _ hz2]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

/-! ## A first tile -/

theorem sout_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) :
    sout0_A c i arg2 harg2 arg3 harg3 arg4 harg4 arg5 harg5 arg6 harg6 arg7 harg7 hc0 hc1 x0 x1 x2 = k0_pay1 (k0_pay3 (F := F)) (k0_pay7 x0 x1 x2) := by
  unfold sout0_A
  rw [View.read_writes_eq_canon _ _ _ (scover0_A c i arg2 harg2 arg3 harg3 arg4 harg4 arg5 harg5 arg6 harg6 arg7 harg7 hc0 hc1 x0 x1 x2)]
  unfold kernelRun0_A
  dsimp only
  sl_unfold_words
  rw [View.canon_cons_unit_zero (S := S1x2048) hz2, View.readCov_unit_zero (S := S1x2048) _ hz2]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

theorem out3_A (c : Dev nD) (i : grid0.Coords) (arg2 : Memref sig .tc .vmem S1x256x512 .bf16) (harg2 : arg2.IsWhole) (arg3 : Memref sig .tc .vmem S1x2048x512 .bf16) (harg3 : arg3.IsWhole) (arg4 : Memref sig .tc .vmem S1x256x2048 .i32) (harg4 : arg4.IsWhole) (arg5 : Memref sig .tc .vmem S1x256x2048 .f32) (harg5 : arg5.IsWhole) (arg6 : Memref sig .tc .vmem S1x1x512 .f32) (harg6 : arg6.IsWhole) (arg7 : Memref sig .tc .vmem S1x2048 .f32) (harg7 : arg7.IsWhole) (hc0 : cond0_0 i) (hc1 : ¬cond0_1 i) (x0 : Vec F S1x256x512 .bf16) (x1 : Vec F S1x2048x512 .bf16) (x2 : Vec F S1x256x2048 .i32) :
    out0_A_3 c i arg2 harg2 arg3 harg3 arg4 harg4 arg5 harg5 arg6 harg6 arg7 harg7 hc0 hc1 x0 x1 x2 = k0_pay6 x0 x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x2048) hz2, View.ld_unit_zero (S := S1x256x512) hz3, View.ld_unit_zero (S := S1x2048x512) hz3, View.ld_unit_zero (S := S1x256x2048) hz3, View.ld_unit_zero (S := S1x1x512) hz3]

end Cert.KernelIdeal.Frame

end
-- ==== Proof.KI.OutAt.lean ====
/-
  What the buffers hold after each point, in the body's own arithmetic: the probabilities' buffer the softmax payload of the point's blocks; the scratch, from zeros at a batch's first tile, the entering column sums plus the tile's; at a batch's last tile the second result's buffer the product of the scratch with the key slab.
-/
import proofs.«126320_j37881611551174_2_alg».proof.Proof.KI.Pieces

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem out3At_eq (c : Dev nD) (t : Fin cfg0.N) :
    out3At V c t = k0_pay6 (iblk V c 0 t) (iblk V c 1 t) (iblk V c 2 t) := by
  have hN : t.val < 64 := lt_of_lt_of_eq t.isLt (show cfg0.N = 64 from N_0)
  unfold out3At
  by_cases h0 : t.val % 8 = 0
  · by_cases h1 : t.val % 8 = 7
    · exfalso; omega
    · rw [dif_pos h0, dif_neg h1]; exact out3_A ..
  · by_cases h1 : t.val % 8 = 7
    · rw [dif_neg h0, dif_pos h1]; exact out3_C ..
    · rw [dif_neg h0, dif_neg h1]; exact out3_B ..

theorem scrAt_first (c : Dev nD) (t : Fin cfg0.N) (h0 : t.val % 8 = 0) :
    scrAt V c t.val t.isLt = k0_pay1 (k0_pay3 (F := F)) (k0_pay7 (iblk V c 0 t) (iblk V c 1 t) (iblk V c 2 t)) := by
  rw [scrAt_A V c t h0 (by omega)]; exact sout_A ..

theorem scrAt_next (c : Dev nD) (t : Fin cfg0.N) (h0 : ¬t.val % 8 = 0) :
    scrAt V c t.val t.isLt = k0_pay1 (scrPrev V c t) (k0_pay7 (iblk V c 0 t) (iblk V c 1 t) (iblk V c 2 t)) := by
  by_cases h1 : t.val % 8 = 7
  · rw [scrAt_C V c t h0 h1]; exact sout_C ..
  · rw [scrAt_B V c t h0 h1]; exact sout_B ..

theorem out4At_last (c : Dev nD) (t : Fin cfg0.N) (h1 : t.val % 8 = 7) :
    out4At V c t = k0_pay2 (k0_pay4 (iblk V c 1 t)) (scrAt V c t.val t.isLt) := by
  have h0 : ¬t.val % 8 = 0 := by omega
  rw [scrAt_next V c t h0]
  unfold out4At
  rw [dif_neg h0, dif_pos h1]; exact out4_C ..

end Cert.KernelIdeal.Frame

end
-- ==== Proof.Spec.lean ====
/-
  The function both programs compute, index by index on the extended reals, over the batch of 8 sequences of
  2048 rows of 512 features: the scores are e^(x_q · x_k) times the scale 1/D (D the divisor 11863283/524288),
  with the entries whose mask word is 0 replaced by the fill value; each row of scores is turned into
  probabilities by the shifted softmax (subtract the row maximum, exponentiate, divide by the row's sum); the
  second result sums, over all query rows q and key rows k, the probability times the key row's feature.
-/
import Idealize.ShloMosaic.PureOps.Ideal
import Idealize.ShloMosaic.Lib.ValueIdx

noncomputable section

open scoped BigOperators

namespace Cert.AttnSpec

open Idealize.ShloMosaic Idealize.ShloMosaic.ValueIdx

/-- The scale of the scores: the reciprocal of the divisor 11863283/524288. -/
def scale : EReal := ((524288 / 11863283 : ℝ) : EReal)

/-- The fill value of masked scores. -/
def fill : EReal := Ideal.ofBits .f32 0xCE6E6B28#32

/-- The inner product of query row `q` and key row `k` of batch `b`. -/
def dotqk (x : (⟨3, ![8, 2048, 512]⟩ : Shape).Idx → EReal) (b : Fin 8) (q k : Fin 2048) : EReal :=
  ∑ d : Fin 512, x (ix3 b q d) * x (ix3 b k d)

/-- The masked, scaled score. -/
def score (x : (⟨3, ![8, 2048, 512]⟩ : Shape).Idx → EReal) (mask : (⟨3, ![8, 2048, 2048]⟩ : Shape).Idx → BitVec 32)
    (b : Fin 8) (q k : Fin 2048) : EReal :=
  if mask (ix3 b q k) = 0#32 then fill else Ideal.exp (dotqk x b q k) * scale

/-- The maximum of a row of scores (a fold of `max` from −∞). -/
def rowMax (x : (⟨3, ![8, 2048, 512]⟩ : Shape).Idx → EReal) (mask : (⟨3, ![8, 2048, 2048]⟩ : Shape).Idx → BitVec 32)
    (b : Fin 8) (q : Fin 2048) : EReal :=
  (Finset.univ : Finset (Fin 2048)).fold max (Ideal.ofBits .f32 0xFF800000#32) (fun k => score x mask b q k)

/-- The shifted exponential of a score. -/
def unnorm (x : (⟨3, ![8, 2048, 512]⟩ : Shape).Idx → EReal) (mask : (⟨3, ![8, 2048, 2048]⟩ : Shape).Idx → BitVec 32)
    (b : Fin 8) (q k : Fin 2048) : EReal :=
  Ideal.exp (score x mask b q k - rowMax x mask b q)

/-- The sum of a row's shifted exponentials. -/
def rowSum (x : (⟨3, ![8, 2048, 512]⟩ : Shape).Idx → EReal) (mask : (⟨3, ![8, 2048, 2048]⟩ : Shape).Idx → BitVec 32)
    (b : Fin 8) (q : Fin 2048) : EReal :=
  ∑ k : Fin 2048, unnorm x mask b q k

/-- The probability of key `k` for query `q`. -/
def prob (x : (⟨3, ![8, 2048, 512]⟩ : Shape).Idx → EReal) (mask : (⟨3, ![8, 2048, 2048]⟩ : Shape).Idx → BitVec 32)
    (b : Fin 8) (q k : Fin 2048) : EReal :=
  Ideal.div (unnorm x mask b q k) (rowSum x mask b q)

/-- The first result's array: the probabilities. -/
def probs (x : (⟨3, ![8, 2048, 512]⟩ : Shape).Idx → EReal) (mask : (⟨3, ![8, 2048, 2048]⟩ : Shape).Idx → BitVec 32) :
    (⟨3, ![8, 2048, 2048]⟩ : Shape).Idx → EReal :=
  fun i => prob x mask (i 0) (i 1) (i 2)

/-- The second result's array: the probability-weighted key rows summed over every query and key. -/
def outSum (x : (⟨3, ![8, 2048, 512]⟩ : Shape).Idx → EReal) (mask : (⟨3, ![8, 2048, 2048]⟩ : Shape).Idx → BitVec 32) :
    (⟨2, ![8, 512]⟩ : Shape).Idx → EReal :=
  fun i => ∑ q : Fin 2048, ∑ k : Fin 2048, prob x mask (i 0) q k * x (ix3 (i 0) k (i 1))

end Cert.AttnSpec

end
-- ==== Proof.RefConsts.lean ====
/-
  The float literals of the programs as extended reals: the divisor 11863283/524288 of the scores (so that
  dividing by it is multiplying by the scale 524288/11863283), the patterns of −∞ (from which the row maximum
  is folded) and +∞ (the bound of the finiteness test), and the fill value −10⁹.
-/
import Idealize.ShloMosaic.PureOps.Ideal
import proofs.«126320_j37881611551174_2_alg».proof.Proof.Spec

noncomputable section

namespace Cert.ReferenceIdeal.RefValue

open Idealize.ShloMosaic

/-- The divisor's pattern denotes the real 11863283/524288 (= (2^23 + 3474675) · 2^(4 − 23)). -/
theorem ofBits_divisor : Ideal.ofBits .f32 0x41B504F3#32 = ((11863283 / 524288 : ℝ) : EReal) := by
  simp [Ideal.ofBits, Ideal.ieee, -EReal.coe_mul]; norm_num

/-- The pattern with sign 1, exponent all ones and fraction 0 denotes −∞. -/
theorem ofBits_neg_inf : Ideal.ofBits .f32 0xFF800000#32 = ⊥ := by
  simp [Ideal.ofBits, Ideal.ieee]

/-- The pattern with sign 0, exponent all ones and fraction 0 denotes +∞. -/
theorem ofBits_pos_inf : Ideal.ofBits .f32 0x7F800000#32 = ⊤ := by
  simp [Ideal.ofBits, Ideal.ieee]

/-- The fill value of masked scores is the real −10⁹ (= −(2^23 + 7236392) · 2^(29 − 23)). -/
theorem fill_eq : Cert.AttnSpec.fill = ((-1000000000 : ℝ) : EReal) := by
  unfold Cert.AttnSpec.fill
  simp [Ideal.ofBits, Ideal.ieee, -EReal.coe_mul]; norm_num

/-- Dividing by the divisor is multiplying by the scale, at the infinities too. -/
theorem div_divisor (e : EReal) :
    Ideal.div e (Ideal.ofBits .f32 0x41B504F3#32) = e * Cert.AttnSpec.scale := by
  rw [ofBits_divisor, Ideal.div_coe (by norm_num)]
  unfold Cert.AttnSpec.scale
  congr 2
  norm_num

/-- The maximum with −∞ on the left is the other operand. -/
theorem max_neg_inf (y : EReal) : max (Ideal.ofBits .f32 0xFF800000#32) y = y := by
  rw [ofBits_neg_inf]; exact max_eq_right bot_le

end Cert.ReferenceIdeal.RefValue

end
-- ==== Proof.ColSum.lean ====
/-
  The second result as column sums. When every feature is a real number, every score, row maximum and shifted
  exponential of the specification is real, each row's sum of shifted exponentials is positive, and so every
  probability is nonnegative. For nonnegative extended reals a sum times a factor is the sum of the products;
  so the probabilities may first be summed over the query rows — tile by tile, the 2048 rows being 8 tiles of
  256 — and the column sums multiplied once with the key rows' features: that is the specification's sum over
  every query and key, with the two sums exchanged.
-/
import Idealize.ShloMosaic.PureOps.Ideal
import Idealize.ShloMosaic.Lib.ValueIdx
import proofs.«126320_j37881611551174_2_alg».proof.Proof.Spec
import proofs.«126320_j37881611551174_2_alg».proof.Proof.RefConsts

noncomputable section

open scoped BigOperators

namespace Cert.AttnSpec

open Idealize.ShloMosaic Idealize.ShloMosaic.ValueIdx

/-! ## The tiles and the accumulated column sums -/

/-- Query row `r` of tile `j`. -/
def tileRow (j : Fin 8) (r : Fin 256) : Fin 2048 := ⟨256 * j.val + r.val, by omega⟩

/-- The sum of column `k` of the probabilities over the rows of tile `j`. -/
def tileSum (x : (⟨3, ![8, 2048, 512]⟩ : Shape).Idx → EReal) (mask : (⟨3, ![8, 2048, 2048]⟩ : Shape).Idx → BitVec 32)
    (b : Fin 8) (j : Fin 8) (k : Fin 2048) : EReal :=
  ∑ r : Fin 256, prob x mask b (tileRow j r) k

/-- The column sums accumulated over tiles 0, …, n, starting from 0. -/
def colAcc (x : (⟨3, ![8, 2048, 512]⟩ : Shape).Idx → EReal) (mask : (⟨3, ![8, 2048, 2048]⟩ : Shape).Idx → BitVec 32)
    (b : Fin 8) : (n : ℕ) → n < 8 → Fin 2048 → EReal
  | 0, _ => fun k => 0 + tileSum x mask b 0 k
  | n + 1, h => fun k => colAcc x mask b n (by omega) k + tileSum x mask b ⟨n + 1, h⟩ k

/-! ## Real features give real scores and positive row sums -/

/-- A finite sum of reals is a real. -/
theorem sum_real {ι : Type} (f : ι → EReal) (s : Finset ι) :
    (∀ i ∈ s, ∃ r : ℝ, f i = (r : EReal)) → ∃ r : ℝ, ∑ i ∈ s, f i = (r : EReal) := by
  classical
  refine Finset.induction_on s ?_ ?_
  · intro _; exact ⟨0, by rw [Finset.sum_empty, EReal.coe_zero]⟩
  · intro a s ha ih h
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

theorem dotqk_real (x : (⟨3, ![8, 2048, 512]⟩ : Shape).Idx → EReal) (hx : ∀ i, ∃ r : ℝ, x i = (r : EReal))
    (b : Fin 8) (q k : Fin 2048) : ∃ r : ℝ, dotqk x b q k = (r : EReal) := by
  unfold dotqk
  refine sum_real _ _ (fun d _ => ?_)
  obtain ⟨r1, h1⟩ := hx (ix3 b q d)
  obtain ⟨r2, h2⟩ := hx (ix3 b k d)
  exact ⟨r1 * r2, by rw [h1, h2, EReal.coe_mul]⟩

theorem score_real (x : (⟨3, ![8, 2048, 512]⟩ : Shape).Idx → EReal) (mask : (⟨3, ![8, 2048, 2048]⟩ : Shape).Idx → BitVec 32)
    (hx : ∀ i, ∃ r : ℝ, x i = (r : EReal)) (b : Fin 8) (q k : Fin 2048) :
    ∃ r : ℝ, score x mask b q k = (r : EReal) := by
  unfold score
  split
  · exact ⟨_, Cert.ReferenceIdeal.RefValue.fill_eq⟩
  · obtain ⟨r, hr⟩ := dotqk_real x hx b q k
    refine ⟨Real.exp r * (524288 / 11863283), ?_⟩
    rw [hr, Ideal.exp_coe]
    unfold scale
    rw [← EReal.coe_mul]

/-- The fold of max from −∞ over a row of real scores is real: above −∞ by any score, below +∞ by all. -/
theorem rowMax_real (x : (⟨3, ![8, 2048, 512]⟩ : Shape).Idx → EReal) (mask : (⟨3, ![8, 2048, 2048]⟩ : Shape).Idx → BitVec 32)
    (hx : ∀ i, ∃ r : ℝ, x i = (r : EReal)) (b : Fin 8) (q : Fin 2048) :
    ∃ r : ℝ, rowMax x mask b q = (r : EReal) := by
  have hlt : rowMax x mask b q < ⊤ := by
    unfold rowMax
    rw [Finset.fold_max_lt]
    refine ⟨?_, fun k _ => ?_⟩
    · rw [Cert.ReferenceIdeal.RefValue.ofBits_neg_inf]; exact bot_lt_top
    · obtain ⟨r, hr⟩ := score_real x mask hx b q k
      rw [hr]; exact EReal.coe_lt_top r
  have hgt : ⊥ < rowMax x mask b q := by
    unfold rowMax
    rw [Finset.lt_fold_max]
    refine Or.inr ⟨0, Finset.mem_univ _, ?_⟩
    obtain ⟨r, hr⟩ := score_real x mask hx b q 0
    rw [hr]; exact EReal.bot_lt_coe r
  exact ⟨(rowMax x mask b q).toReal, (EReal.coe_toReal hlt.ne hgt.ne').symm⟩

/-- A shifted exponential is a positive real. -/
theorem unnorm_pos_real (x : (⟨3, ![8, 2048, 512]⟩ : Shape).Idx → EReal) (mask : (⟨3, ![8, 2048, 2048]⟩ : Shape).Idx → BitVec 32)
    (hx : ∀ i, ∃ r : ℝ, x i = (r : EReal)) (b : Fin 8) (q k : Fin 2048) :
    ∃ r : ℝ, 0 < r ∧ unnorm x mask b q k = (r : EReal) := by
  obtain ⟨s, hs⟩ := score_real x mask hx b q k
  obtain ⟨m, hm⟩ := rowMax_real x mask hx b q
  refine ⟨Real.exp (s - m), Real.exp_pos _, ?_⟩
  unfold unnorm
  rw [hs, hm, ← EReal.coe_sub, Ideal.exp_coe]

theorem unnorm_nonneg (x : (⟨3, ![8, 2048, 512]⟩ : Shape).Idx → EReal) (mask : (⟨3, ![8, 2048, 2048]⟩ : Shape).Idx → BitVec 32)
    (hx : ∀ i, ∃ r : ℝ, x i = (r : EReal)) (b : Fin 8) (q k : Fin 2048) : 0 ≤ unnorm x mask b q k := by
  obtain ⟨r, hr, h⟩ := unnorm_pos_real x mask hx b q k
  rw [h]; exact EReal.coe_nonneg.2 hr.le

/-- A row's sum of shifted exponentials is positive: nonnegative terms, the first one positive. -/
theorem rowSum_pos (x : (⟨3, ![8, 2048, 512]⟩ : Shape).Idx → EReal) (mask : (⟨3, ![8, 2048, 2048]⟩ : Shape).Idx → BitVec 32)
    (hx : ∀ i, ∃ r : ℝ, x i = (r : EReal)) (b : Fin 8) (q : Fin 2048) : 0 < rowSum x mask b q := by
  unfold rowSum
  obtain ⟨r, hr, h0⟩ := unnorm_pos_real x mask hx b q 0
  have hle : unnorm x mask b q 0 ≤ ∑ k : Fin 2048, unnorm x mask b q k :=
    Finset.single_le_sum (f := fun k => unnorm x mask b q k) (fun k _ => unnorm_nonneg x mask hx b q k)
      (Finset.mem_univ 0)
  refine lt_of_lt_of_le ?_ hle
  rw [h0]; exact EReal.coe_pos.2 hr

/-- Every probability is nonnegative when the features are real (the divisor is not zero, so the quotient is
    the product with the inverse, of two nonnegative factors). -/
theorem prob_nonneg (x : (⟨3, ![8, 2048, 512]⟩ : Shape).Idx → EReal) (mask : (⟨3, ![8, 2048, 2048]⟩ : Shape).Idx → BitVec 32)
    (hx : ∀ i, ∃ r : ℝ, x i = (r : EReal)) (b : Fin 8) (q k : Fin 2048) : 0 ≤ prob x mask b q k := by
  unfold prob Ideal.div
  rw [if_neg (rowSum_pos x mask hx b q).ne']
  exact EReal.mul_nonneg (unnorm_nonneg x mask hx b q k) (EReal.inv_nonneg_of_nonneg (rowSum_pos x mask hx b q).le)

/-! ## Sums of nonnegative extended reals times a factor; the rows as tiles -/

/-- For nonnegative terms the sum times a factor is the sum of the products. -/
theorem sum_mul_of_nonneg {ι : Type} (f : ι → EReal) (c : EReal) (s : Finset ι) :
    (∀ i ∈ s, 0 ≤ f i) → (∑ i ∈ s, f i) * c = ∑ i ∈ s, f i * c := by
  classical
  refine Finset.induction_on s ?_ ?_
  · intro _; rw [Finset.sum_empty, Finset.sum_empty, zero_mul]
  · intro a s ha ih h
    have hs : ∀ i ∈ s, 0 ≤ f i := fun i hi => h i (Finset.mem_insert_of_mem hi)
    rw [Finset.sum_insert ha, Finset.sum_insert ha,
      EReal.right_distrib_of_nonneg (h a (Finset.mem_insert_self a s)) (Finset.sum_nonneg hs), ih hs]

/-- The 2048 query rows are the 8 tiles of 256 rows. -/
def tileEquiv : Fin 8 × Fin 256 ≃ Fin 2048 where
  toFun p := tileRow p.1 p.2
  invFun q := (⟨q.val / 256, by have := q.isLt; omega⟩, ⟨q.val % 256, by omega⟩)
  left_inv p := by
    obtain ⟨j, r⟩ := p
    refine Prod.ext (Fin.ext ?_) (Fin.ext ?_)
    · show (256 * j.val + r.val) / 256 = j.val
      have := r.isLt; omega
    · show (256 * j.val + r.val) % 256 = r.val
      have := r.isLt; omega
  right_inv q := by
    apply Fin.ext
    show 256 * (q.val / 256) + q.val % 256 = q.val
    omega

/-- A sum over the tiles and the rows of a tile is the sum over all rows. -/
theorem sum_tiles (f : Fin 2048 → EReal) : ∑ j : Fin 8, ∑ r : Fin 256, f (tileRow j r) = ∑ q : Fin 2048, f q := by
  rw [← Fintype.sum_prod_type' (f := fun j r => f (tileRow j r))]
  exact Fintype.sum_equiv tileEquiv _ _ (fun p => rfl)

/-- The accumulated column sums after tile `n` are the sum of the tiles' sums up to `n`. -/
theorem colAcc_eq (x : (⟨3, ![8, 2048, 512]⟩ : Shape).Idx → EReal) (mask : (⟨3, ![8, 2048, 2048]⟩ : Shape).Idx → BitVec 32)
    (b : Fin 8) (k : Fin 2048) : ∀ (n : ℕ) (h : n < 8),
    colAcc x mask b n h k
      = ∑ j : Fin (n + 1), tileSum x mask b ⟨j.val, Nat.lt_of_lt_of_le j.isLt (Nat.succ_le_of_lt h)⟩ k
  | 0, _ => by
    show 0 + tileSum x mask b 0 k = ∑ j : Fin 1, tileSum x mask b ⟨j.val, _⟩ k
    rw [Fin.sum_univ_one]
    exact zero_add _
  | n + 1, h => by
    show colAcc x mask b n _ k + tileSum x mask b ⟨n + 1, h⟩ k = _
    rw [colAcc_eq x mask b k n (by omega)]
    exact (Fin.sum_univ_castSucc (fun j : Fin (n + 1 + 1) =>
      tileSum x mask b ⟨j.val, Nat.lt_of_lt_of_le j.isLt (Nat.succ_le_of_lt h)⟩ k)).symm

/-- After the last tile the accumulated column sum is the sum of the column over all query rows. -/
theorem colAcc_last (x : (⟨3, ![8, 2048, 512]⟩ : Shape).Idx → EReal) (mask : (⟨3, ![8, 2048, 2048]⟩ : Shape).Idx → BitVec 32)
    (b : Fin 8) (k : Fin 2048) : colAcc x mask b 7 (by omega) k = ∑ q : Fin 2048, prob x mask b q k := by
  rw [colAcc_eq x mask b k 7 (by omega)]
  show ∑ j : Fin 8, tileSum x mask b j k = _
  unfold tileSum
  exact sum_tiles (fun q => prob x mask b q k)

/-- The column sums times the key rows' features, summed over the keys, are the specification's second result. -/
theorem colAcc_total (x : (⟨3, ![8, 2048, 512]⟩ : Shape).Idx → EReal) (mask : (⟨3, ![8, 2048, 2048]⟩ : Shape).Idx → BitVec 32)
    (hx : ∀ i, ∃ r : ℝ, x i = (r : EReal)) (b : Fin 8) (d : Fin 512) :
    ∑ k : Fin 2048, colAcc x mask b 7 (by omega) k * x (ix3 b k d) = outSum x mask (ix2 b d) := by
  simp only [colAcc_last]
  calc ∑ k : Fin 2048, (∑ q : Fin 2048, prob x mask b q k) * x (ix3 b k d)
      = ∑ k : Fin 2048, ∑ q : Fin 2048, prob x mask b q k * x (ix3 b k d) :=
        Finset.sum_congr rfl (fun k _ =>
          sum_mul_of_nonneg (fun q => prob x mask b q k) _ _ (fun q _ => prob_nonneg x mask hx b q k))
    _ = ∑ q : Fin 2048, ∑ k : Fin 2048, prob x mask b q k * x (ix3 b k d) := Finset.sum_comm
    _ = outSum x mask (ix2 b d) := rfl

end Cert.AttnSpec

end
-- ==== Proof.KI.Blocks.lean ====
/-
  The input windows' blocks at a grid point, read at coordinates, at the ideal values: point t is batch t / 8 and
  query tile t % 8; the query window's block is rows 256·(t % 8) … of batch t / 8 of x, the key window's block is all
  of batch t / 8 of x, the mask window's block is rows 256·(t % 8) … of batch t / 8 of the mask. The region reads x
  through its conversion to the narrower format, which at the ideal values is x itself.
-/
import proofs.«126320_j37881611551174_2_alg».proof.Proof.KI.OutAt
import proofs.«126320_j37881611551174_2_alg».proof.Proof.ColSum
import Idealize.ShloMosaic.Lib.StableHlo.Run
import Idealize.ShloMosaic.Lib.ValueIdx

set_option maxRecDepth 16384

noncomputable section

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame Cert.AttnSpec

variable (m : (ℓ : Loc nD τ sig) → Buf (Elt Ideal) ℓ) (ρ : Dev nD → PrngReg)

/-- The argument arrays as the specification takes them. -/
abbrev xOf (c : Dev nD) : (⟨3, ![8, 2048, 512]⟩ : Shape).Idx → EReal := m ((c : Thread nD τ).loc main_arg0)
abbrev maskOf (c : Dev nD) : (⟨3, ![8, 2048, 2048]⟩ : Shape).Idx → BitVec 32 := m ((c : Thread nD τ).loc main_arg1)

/-- The converted copy of x the region reads is x. -/
theorem V1_v0 (c : Dev nD) : (V1 (F := Ideal) m ρ c main_v0 : (⟨3, ![8, 2048, 512]⟩ : Shape).Idx → EReal) = xOf m c := by
  show StableHlo.after hostOps0 (fun b => m (c, b)) (Proc.devRef .tc main_v0) = _
  after_results
  rfl
/-- The mask is not touched before the region. -/
theorem V1_arg1 (c : Dev nD) : (V1 (F := Ideal) m ρ c main_arg1 : (⟨3, ![8, 2048, 2048]⟩ : Shape).Idx → BitVec 32) = maskOf m c :=
  W1_main_arg1 m ρ c

/-- The batch and the query tile of a grid point. -/
abbrev bOf (t : Fin cfg0.N) : Fin 8 := ⟨t.val / 8, by have := lt_of_lt_of_eq t.isLt (show cfg0.N = 64 from N_0); omega⟩
abbrev jOf (t : Fin cfg0.N) : Fin 8 := ⟨t.val % 8, by omega⟩

/-- The printed index maps, decided over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = 0 ∧ win0_4.index t (2 : Fin 3) = 0 :=
  (by decide +kernel : ∀ t : Fin grid0.N, _)

theorem blk0_at (c : Dev nD) (t : Fin cfg0.N) (r : Fin 256) (d : Fin 512) :
    (iblk (V1 (F := Ideal) m ρ) c 0 t : Vec Ideal S1x256x512 .bf16) (ix3 0 r d) = xOf m c (ix3 (bOf t) (tileRow (jOf t) r) d) := by
  show V1 (F := Ideal) m ρ c main_v0 (((cfg0.win 0).blk t).view.emb (ix3 0 r d)) = _
  rw [V1_v0]
  obtain ⟨e0, e1, e2, -⟩ := idx_facts t
  congr 1
  funext a; apply Fin.ext
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 512 + 1 * d.val = d.val; omega

theorem blk1_at (c : Dev nD) (t : Fin cfg0.N) (k : Fin 2048) (d : Fin 512) :
    (iblk (V1 (F := Ideal) m ρ) c 1 t : Vec Ideal S1x2048x512 .bf16) (ix3 0 k d) = xOf m c (ix3 (bOf t) k d) := by
  show V1 (F := Ideal) m ρ c main_v0 (((cfg0.win 1).blk t).view.emb (ix3 0 k d)) = _
  rw [V1_v0]
  obtain ⟨-, -, -, e0, e1, e2, -⟩ := idx_facts t
  congr 1
  funext a; apply Fin.ext
  match a with
  | ⟨0, _⟩ => show win0_1.index t (0 : Fin 3) * 1 + 1 * 0 = t.val / 8; omega
  | ⟨1, _⟩ => show win0_1.index t (1 : Fin 3) * 2048 + 1 * k.val = k.val; omega
  | ⟨2, _⟩ => show win0_1.index t (2 : Fin 3) * 512 + 1 * d.val = d.val; omega

theorem blk2_at (c : Dev nD) (t : Fin cfg0.N) (r : Fin 256) (k : Fin 2048) :
    (iblk (V1 (F := Ideal) m ρ) c 2 t : Vec Ideal S1x256x2048 .i32) (ix3 0 r k) = maskOf m c (ix3 (bOf t) (tileRow (jOf t) r) k) := by
  show V1 (F := Ideal) m ρ c main_arg1 (((cfg0.win 2).blk t).view.emb (ix3 0 r k)) = _
  rw [V1_arg1]
  obtain ⟨-, -, -, -, -, -, e0, e1, e2, -⟩ := idx_facts t
  congr 1
  funext a; apply Fin.ext
  match a with
  | ⟨0, _⟩ => show win0_2.index t (0 : Fin 3) * 1 + 1 * 0 = t.val / 8; omega
  | ⟨1, _⟩ => show win0_2.index t (1 : Fin 3) * 256 + 1 * r.val = 256 * (t.val % 8) + r.val; omega
  | ⟨2, _⟩ => show win0_2.index t (2 : Fin 3) * 2048 + 1 * k.val = k.val; omega

end Cert.KernelIdeal.Value

end
-- ==== Proof.KI.PayAtSmall.lean ====
/-
  The small stored values of the kernel body, read at an index on the extended reals: the accumulated column
  sums are the old ones plus the tile's; their first value is 0; the key block as a matrix is the block itself;
  and the final product is, at feature d, the sum over the keys of the column sum times the key's feature.
-/
import proofs.«126320_j37881611551174_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-- The stored accumulator: the loaded one plus the tile's column sums (the cast to the same shape is the identity). -/
theorem pay1_at (v30 : Vec Ideal S1x2048 .f32) (v32 : FVec Ideal S1x2048 .f32) (k : Fin 2048) :
    k0_pay1 (F := Ideal) v30 v32 (ix2 (0 : Fin 1) k) = v30 (ix2 (0 : Fin 1) k) + v32 (ix2 (0 : Fin 1) k) := by
  unfold k0_pay1
  rw [shapeCast_self]
  rfl

/-- The accumulator's first value is 0 everywhere. -/
theorem pay3_at (k : Fin 2048) : k0_pay3 (F := Ideal) (ix2 (0 : Fin 1) k) = 0 := by
  unfold k0_pay3
  rw [shapeCast_self]
  exact Ideal.ofBits_zero_f32

/-- The key block with its unit axis dropped. -/
theorem pay4_at (x1 : Vec Ideal S1x2048x512 .bf16) (k : Fin 2048) (d : Fin 512) :
    k0_pay4 (F := Ideal) x1 (ix2 k d) = x1 (ix3 (0 : Fin 1) k d) := by
  unfold k0_pay4
  exact shapeCast_1ab_ab_apply x1 shapeCasts_S1x2048x512_S2048x512 k d

/-- The dimension numbers of the final product: [1, 2048] times [2048, 512]. -/
abbrev DOut : DotDims S1x2048 S2048x512 S1x512 := dot_S1x2048_S2048x512_S1x512_1_0_0_1_n_n

theorem lhs_pay2_0 (i : S1x512.Idx) (q : DOut.contr.Idx) : (DOut.lhsIdx i q 0).val = (i 0).val := by
  unfold DotDims.lhsIdx
  rw [dif_neg (show ¬(0 : Fin S1x2048.rank) ∈ DOut.lhsBatch by decide),
    dif_pos (show (0 : Fin S1x2048.rank) ∈ DOut.lhsNonContracting by decide)]
  rfl
theorem lhs_pay2_1 (i : S1x512.Idx) (q : DOut.contr.Idx) : (DOut.lhsIdx i q 1).val = (q ⟨0, by decide⟩).val :=
  DOut.lhsIdx_val_of_single rfl i q
theorem rhs_pay2_0 (i : S1x512.Idx) (q : DOut.contr.Idx) : (DOut.rhsIdx i q 0).val = (q ⟨0, by decide⟩).val :=
  DOut.rhsIdx_val_of_single rfl i q
theorem rhs_pay2_1 (i : S1x512.Idx) (q : DOut.contr.Idx) : (DOut.rhsIdx i q 1).val = (i 1).val := by
  unfold DotDims.rhsIdx
  rw [dif_neg (show ¬(1 : Fin S2048x512.rank) ∈ DOut.rhsBatch by decide),
    dif_pos (show (1 : Fin S2048x512.rank) ∈ DOut.rhsNonContracting by decide)]
  rfl

/-- The contraction index of the final product is the key: the left factor is read at (0, k). -/
theorem lhs_pay2 (d : Fin 512) (k : Fin 2048) :
    DOut.lhsIdx (ix2 (0 : Fin 1) d) ((contrEquiv1 DOut 2048 rfl rfl).symm k) = ix2 (0 : Fin 1) k := by
  have hk := contrEquiv1_symm_val DOut 2048 rfl rfl k
  exact funext fun a => Fin.ext (by
    match a with
    | ⟨0, _⟩ => exact lhs_pay2_0 _ _
    | ⟨1, _⟩ => exact (lhs_pay2_1 _ _).trans hk)

/-- … and the right factor at (k, d). -/
theorem rhs_pay2 (d : Fin 512) (k : Fin 2048) :
    DOut.rhsIdx (ix2 (0 : Fin 1) d) ((contrEquiv1 DOut 2048 rfl rfl).symm k) = ix2 k d := by
  have hk := contrEquiv1_symm_val DOut 2048 rfl rfl k
  exact funext fun a => Fin.ext (by
    match a with
    | ⟨0, _⟩ => exact (rhs_pay2_0 _ _).trans hk
    | ⟨1, _⟩ => exact rhs_pay2_1 _ _)

/-- The final product at feature d: the sum over the keys of the column sum times the key's feature (the change
    of format of the column sums is the identity on the extended reals; the accumulator is the zero splat). -/
theorem pay2_at (v6 : FVec Ideal S2048x512 .bf16) (v40 : Vec Ideal S1x2048 .f32) (d : Fin 512) :
    k0_pay2 (F := Ideal) v6 v40 (ix3 (0 : Fin 1) (0 : Fin 1) d)
      = ∑ k : Fin 2048, v40 (ix2 (0 : Fin 1) k) * v6 (ix2 k d) := by
  unfold k0_pay2
  refine (shapeCast_ab_1ab_apply _ shapeCasts_S1x512_S1x1x512 (0 : Fin 1) (0 : Fin 1) d).trans ?_
  simp only [matmul]
  rw [Ideal.matmul_constant_zero_apply, ← Equiv.sum_comp (contrEquiv1 DOut 2048 rfl rfl).symm]
  refine Finset.sum_congr rfl fun k _ => ?_
  rw [lhs_pay2, rhs_pay2]
  rfl

end Cert.KernelIdeal.PayAt

end
-- ==== Proof.LibColumn.lean ====
/-
  Two layout operations of a column vector, read at an index written by coordinates.

  A sum along the rows of an `[a, n]` array kept as a column (`keepdims`) is a vector of `a` numbers cast to `[a, 1]`
  and then repeated along the second axis to `[a, b]`. Read at `(p, c)`, the cast gives the vector's entry `p` (the
  row-major position of `(p, 0)` in `[a, 1]` is `p`), and the repeat gives the column's entry `(p, 0)`, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowSum.lean ====
/-
  The sum along the second axis of an `[m, n]` array, read by coordinates.

  Summing an `[m, n]` array along its second axis leaves a vector of `m` numbers. The entry `p` of that vector is the
  sum of the `n` entries of row `p`: the index of the array lying over the reduced index `p` with coordinate `k` on the
  summed axis is `(p, k)`.
-/
import Idealize.ShloMosaic.PureOps.Ideal.Laws
import Idealize.ShloMosaic.Lib.ValueIdx

namespace Cert.LibRowSum

open Idealize.ShloMosaic Idealize.ShloMosaic.ValueIdx

/-- Over the reduced index `p`, the array index with coordinate `k` on the summed (second) axis is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The sum of an `[m, n]` array of extended reals along its second axis is, at `p`, the sum of row `p`'s entries. -/
theorem multiReduction_row_apply {φ : FTy} {m n : ℕ} (src : FVec Ideal (⟨2, ![m, n]⟩ : Shape) φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) :=
  (Ideal.multiReduction_add_single src acc h hφ hacc (ix1 p)).trans
    (Finset.sum_congr rfl fun k _ => congrArg src (lift_row h p k))

/-- The host's sum of an `[m, n]` array along its second axis from the start value `init` is, at `p`, `init` plus the
    sum of row `p`'s entries. -/
theorem hostReduceAdd_row_apply {m n : ℕ} (h' : (⟨2, ![m, n]⟩ : Shape).ReducesTo [1] (⟨1, ![m]⟩ : Shape))
    (h : (⟨2, ![m, n]⟩ : Shape).Reduces [1] (⟨1, ![m]⟩ : Shape)) (x : (⟨2, ![m, n]⟩ : Shape).Idx → EReal) (init : EReal)
    (p : Fin m) : Ideal.hostReduceAdd h' x init (ix1 p) = init + ∑ k : Fin n, x (ix2 p k) :=
  (Ideal.hostReduceAdd_single h' h x init (ix1 p)).trans
    (congrArg (init + ·) (Finset.sum_congr rfl fun k _ => congrArg x (lift_row h p k)))

end Cert.LibRowSum
-- ==== Proof.KI.PayAt.lean ====
/-
  The kernel body's arithmetic for one tile of 256 query rows, read at an index on the extended reals, when its
  three loaded blocks are the tile's query rows, the batch's key rows and the tile's mask rows: the matrix product
  with the transposed key block is the inner product of a query row and a key row; masked and scaled it is the
  specification's score; the lane maximum and lane sum kept as columns and repeated along the rows are the row
  maximum and the row sum; so the quotient is the specification's probability, and its sum over the tile's rows
  is the tile's column sum.
-/
import proofs.«126320_j37881611551174_2_alg».proof.Proof.KI.PayAtSmall
import proofs.«126320_j37881611551174_2_alg».proof.Proof.Spec
import proofs.«126320_j37881611551174_2_alg».proof.Proof.ColSum
import proofs.«126320_j37881611551174_2_alg».proof.Proof.LibColumn
import proofs.«126320_j37881611551174_2_alg».proof.Proof.LibRowSum
import Idealize.ShloMosaic.PureOps.IdealRules

noncomputable section

open scoped BigOperators

namespace Cert.KernelIdeal.PayAt

open Cert.KernelIdeal Cert.KernelIdeal.Gen Idealize.ShloMosaic Idealize.ShloMosaic.ValueIdx Cert.AttnSpec

/-! ## The stages of the body, named -/

/-- The dimension numbers of the score product: [256, 512] times [512, 2048]. -/
abbrev DQK : DotDims S256x512 S512x2048 S256x2048 := dot_S256x512_S512x2048_S256x2048_1_0_0_1_n_n

/-- The mask block as a matrix. -/
def kMask (x2 : Vec Ideal S1x256x2048 .i32) : IVec S256x2048 32 :=
  shapeCast S256x2048 x2 shapeCasts_S1x256x2048_S256x2048

/-- The product of the query block with the transposed key block, into the zero accumulator. -/
def kDot (x0 : Vec Ideal S1x256x512 .bf16) (x1 : Vec Ideal S1x2048x512 .bf16) : FVec Ideal S256x2048 .f32 :=
  matmul DQK none (shapeCast S256x512 x0 shapeCasts_S1x256x512_S256x512 : FVec Ideal S256x512 .bf16)
    (transpose S512x2048 [1, 0] (k0_pay4 (F := Ideal) x1) transposes_S2048x512_p1_0_S512x2048 : FVec Ideal S512x2048 .bf16)
    (constant S256x2048 .f32 0x00000000#32)

/-- The masked, scaled exponentials. -/
def kScore (x0 : Vec Ideal S1x256x512 .bf16) (x1 : Vec Ideal S1x2048x512 .bf16) (x2 : Vec Ideal S1x256x2048 .i32) :
    FVec Ideal S256x2048 .f32 :=
  select (cmpi .eq (kMask x2) (broadcast S256x2048 0#32))
    (broadcast S256x2048 (Scalar.ofBits (F := Ideal) .f32 0xCE6E6B28#32))
    (mulf (exp (kDot x0 x1)) (broadcast S256x2048 (Named.named (F := Ideal) κ "inv_sqrt_d" (φ := .f32) 0x3D3504F3#32)))

/-- A vector of one number per row, kept as a column and repeated along the rows. -/
def kCol (v : FVec Ideal S256 .f32) : FVec Ideal S256x2048 .f32 :=
  broadcastTo S256x2048 (shapeCast S256x1 v shapeCasts_S256_S256x1) broadcasts_S256x1_S256x2048

/-- The exponentials of the scores shifted by their row maximum. -/
def kUn (x0 : Vec Ideal S1x256x512 .bf16) (x1 : Vec Ideal S1x2048x512 .bf16) (x2 : Vec Ideal S1x256x2048 .i32) :
    FVec Ideal S256x2048 .f32 :=
  exp (subf (kScore x0 x1 x2)
    (kCol (multiReduction .maximumf [1] S256 (kScore x0 x1 x2) 0xFF800000#32 reduces_S256x2048_S256 (.inl rfl) rfl)))

/-- The body's quotient is these stages composed. -/
theorem pay5_eq (x0 : Vec Ideal S1x256x512 .bf16) (x1 : Vec Ideal S1x2048x512 .bf16) (x2 : Vec Ideal S1x256x2048 .i32) :
    k0_pay5 (F := Ideal) x0 x1 x2
      = divf (kUn x0 x1 x2)
          (kCol (multiReduction .add [1] S256 (kUn x0 x1 x2) 0x00000000#32 reduces_S256x2048_S256 (.inl rfl) rfl)) := rfl

/-! ## The stages at an index -/

/-- A select on an equality test is the conditional on the equality. -/
theorem select_cmpi_eq {α : Type} (a c : BitVec 32) (u v : α) :
    Scalar.select (IntOp.cmpi .eq a c) u v = if a = c then u else v := by
  by_cases h : a = c
  · rw [if_pos h, IntOp.cmpi_eq.2 h]; exact select_one u v
  · rw [if_neg h]
    unfold Scalar.select
    exact if_neg (fun hc => h (IntOp.cmpi_eq.1 hc))

/-- The named scale is the specification's. -/
theorem named_scale : Named.named (F := Ideal) κ "inv_sqrt_d" (φ := .f32) 0x3D3504F3#32 = scale :=
  IdealRules.named_const.ideal_named_scalar _ _ _ _ rfl

theorem lhs_qk_0 (i : S256x2048.Idx) (q : DQK.contr.Idx) : (DQK.lhsIdx i q 0).val = (i 0).val := by
  unfold DotDims.lhsIdx
  rw [dif_neg (show ¬(0 : Fin S256x512.rank) ∈ DQK.lhsBatch by decide),
    dif_pos (show (0 : Fin S256x512.rank) ∈ DQK.lhsNonContracting by decide)]
  rfl
theorem lhs_qk_1 (i : S256x2048.Idx) (q : DQK.contr.Idx) : (DQK.lhsIdx i q 1).val = (q ⟨0, by decide⟩).val :=
  DQK.lhsIdx_val_of_single rfl i q
theorem rhs_qk_0 (i : S256x2048.Idx) (q : DQK.contr.Idx) : (DQK.rhsIdx i q 0).val = (q ⟨0, by decide⟩).val :=
  DQK.rhsIdx_val_of_single rfl i q
theorem rhs_qk_1 (i : S256x2048.Idx) (q : DQK.contr.Idx) : (DQK.rhsIdx i q 1).val = (i 1).val := by
  unfold DotDims.rhsIdx
  rw [dif_neg (show ¬(1 : Fin S512x2048.rank) ∈ DQK.rhsBatch by decide),
    dif_pos (show (1 : Fin S512x2048.rank) ∈ DQK.rhsNonContracting by decide)]
  rfl

/-- The contraction index of the score product is the feature: the left factor is read at (r, d). -/
theorem lhs_qk (r : Fin 256) (k : Fin 2048) (d : Fin 512) :
    DQK.lhsIdx (ix2 r k) ((contrEquiv1 DQK 512 rfl rfl).symm d) = ix2 r d := by
  have hd := contrEquiv1_symm_val DQK 512 rfl rfl d
  exact funext fun a => Fin.ext (by
    match a with
    | ⟨0, _⟩ => exact lhs_qk_0 _ _
    | ⟨1, _⟩ => exact (lhs_qk_1 _ _).trans hd)

/-- … and the right factor at (d, k). -/
theorem rhs_qk (r : Fin 256) (k : Fin 2048) (d : Fin 512) :
    DQK.rhsIdx (ix2 r k) ((contrEquiv1 DQK 512 rfl rfl).symm d) = ix2 d k := by
  have hd := contrEquiv1_symm_val DQK 512 rfl rfl d
  exact funext fun a => Fin.ext (by
    match a with
    | ⟨0, _⟩ => exact (rhs_qk_0 _ _).trans hd
    | ⟨1, _⟩ => exact rhs_qk_1 _ _)

section Blocks

variable (x0 : Vec Ideal S1x256x512 .bf16) (x1 : Vec Ideal S1x2048x512 .bf16) (x2 : Vec Ideal S1x256x2048 .i32)
  (x : (⟨3, ![8, 2048, 512]⟩ : Shape).Idx → EReal) (mask : (⟨3, ![8, 2048, 2048]⟩ : Shape).Idx → BitVec 32)
  (b j : Fin 8)
  (h0 : ∀ (r : Fin 256) (d : Fin 512), x0 (ix3 (0 : Fin 1) r d) = x (ix3 b (tileRow j r) d))
  (h1 : ∀ (k : Fin 2048) (d : Fin 512), x1 (ix3 (0 : Fin 1) k d) = x (ix3 b k d))
  (h2 : ∀ (r : Fin 256) (k : Fin 2048), x2 (ix3 (0 : Fin 1) r k) = mask (ix3 b (tileRow j r) k))

include h2 in
theorem kMask_at (r : Fin 256) (k : Fin 2048) : kMask x2 (ix2 r k) = mask (ix3 b (tileRow j r) k) :=
  (shapeCast_1ab_ab_apply x2 shapeCasts_S1x256x2048_S256x2048 r k).trans (h2 r k)

include h0 h1 in
/-- The score product at (r, k) is the inner product of query row r of the tile and key row k. -/
theorem kDot_at (r : Fin 256) (k : Fin 2048) : kDot x0 x1 (ix2 r k) = dotqk x b (tileRow j r) k := by
  unfold kDot
  simp only [matmul]
  rw [Ideal.matmul_constant_zero_apply, ← Equiv.sum_comp (contrEquiv1 DQK 512 rfl rfl).symm]
  unfold dotqk
  refine Finset.sum_congr rfl fun d _ => ?_
  rw [lhs_qk, rhs_qk]
  refine congrArg₂ (· * ·) ?_ ?_
  · exact (shapeCast_1ab_ab_apply x0 shapeCasts_S1x256x512_S256x512 r d).trans (h0 r d)
  · exact ((transpose_ix2_apply (k0_pay4 (F := Ideal) x1) transposes_S2048x512_p1_0_S512x2048 d k).trans
      (pay4_at x1 k d)).trans (h1 k d)

include h0 h1 h2 in
theorem kScore_at (r : Fin 256) (k : Fin 2048) : kScore x0 x1 x2 (ix2 r k) = score x mask b (tileRow j r) k := by
  show Scalar.select (IntOp.cmpi .eq (kMask x2 (ix2 r k)) 0#32) (Ideal.ofBits .f32 0xCE6E6B28#32)
      (Ideal.exp (kDot x0 x1 (ix2 r k)) * Named.named (F := Ideal) κ "inv_sqrt_d" (φ := .f32) 0x3D3504F3#32) = _
  rw [kMask_at x2 mask b j h2, kDot_at x0 x1 x b j h0 h1, named_scale, select_cmpi_eq]
  rfl

/-- A column kept from a vector and repeated along the rows reads the vector's entry of the row. -/
theorem kCol_at (v : FVec Ideal S256 .f32) (r : Fin 256) (k : Fin 2048) : kCol v (ix2 r k) = v (ix1 r) :=
  (Cert.LibColumn.broadcastTo_a1_ab_apply _ broadcasts_S256x1_S256x2048 r k).trans
    (Cert.LibColumn.shapeCast_a_a1_apply v shapeCasts_S256_S256x1 r (0 : Fin 1))

include h0 h1 h2 in
/-- The lane maximum from −∞ of row r of the scores is the specification's row maximum. -/
theorem kMax_at (r : Fin 256) :
    multiReduction .maximumf [1] S256 (kScore x0 x1 x2) 0xFF800000#32 reduces_S256x2048_S256 (.inl rfl) rfl (ix1 r)
      = rowMax x mask b (tileRow j r) := by
  refine (Ideal.multiReduction_maximumf_single (kScore x0 x1 x2) 0xFF800000#32 reduces_S256x2048_S256 (.inl rfl) rfl
    (ix1 r)).trans ?_
  unfold rowMax
  have hf : (kScore x0 x1 x2 ∘ reduces_S256x2048_S256.lift (ix1 r))
      = fun k : Fin 2048 => score x mask b (tileRow j r) k :=
    funext fun k => by
      rw [Function.comp_apply, Cert.LibRowSum.lift_row reduces_S256x2048_S256 r k,
        kScore_at x0 x1 x2 x mask b j h0 h1 h2]
      rfl
  exact congrArg (fun f => Finset.fold max (Ideal.ofBits .f32 0xFF800000#32) f (Finset.univ : Finset (Fin 2048))) hf

include h0 h1 h2 in
theorem kUn_at (r : Fin 256) (k : Fin 2048) : kUn x0 x1 x2 (ix2 r k) = unnorm x mask b (tileRow j r) k := by
  show Ideal.exp (kScore x0 x1 x2 (ix2 r k) - kCol _ (ix2 r k)) = _
  rw [kCol_at, kMax_at x0 x1 x2 x mask b j h0 h1 h2, kScore_at x0 x1 x2 x mask b j h0 h1 h2]
  rfl

include h0 h1 h2 in
/-- The lane sum of row r of the shifted exponentials is the specification's row sum. -/
theorem kSum_at (r : Fin 256) :
    multiReduction .add [1] S256 (kUn x0 x1 x2) 0x00000000#32 reduces_S256x2048_S256 (.inl rfl) rfl (ix1 r)
      = rowSum x mask b (tileRow j r) := by
  refine (Cert.LibRowSum.multiReduction_row_apply (kUn x0 x1 x2) 0x00000000#32 reduces_S256x2048_S256 (.inl rfl) rfl
    r).trans ?_
  unfold rowSum
  exact Finset.sum_congr rfl fun k _ => kUn_at x0 x1 x2 x mask b j h0 h1 h2 r k

include h0 h1 h2 in
/-- The body's quotient at (r, k) is the probability of key k for query row r of the tile. -/
theorem pay5_at (r : Fin 256) (k : Fin 2048) :
    k0_pay5 (F := Ideal) x0 x1 x2 (ix2 r k) = prob x mask b (tileRow j r) k := by
  rw [pay5_eq]
  show Ideal.div (kUn x0 x1 x2 (ix2 r k)) (kCol _ (ix2 r k)) = _
  rw [kCol_at, kSum_at x0 x1 x2 x mask b j h0 h1 h2, kUn_at x0 x1 x2 x mask b j h0 h1 h2]
  rfl

include h0 h1 h2 in
/-- The stored probability block is the quotient with a unit axis put in front. -/
theorem pay6_at (r : Fin 256) (k : Fin 2048) :
    k0_pay6 (F := Ideal) x0 x1 x2 (ix3 (0 : Fin 1) r k) = prob x mask b (tileRow j r) k := by
  unfold k0_pay6
  exact (shapeCast_ab_1ab_apply _ shapeCasts_S256x2048_S1x256x2048 (0 : Fin 1) r k).trans
    (pay5_at x0 x1 x2 x mask b j h0 h1 h2 r k)

/-- A column index with the row coordinate put back. -/
theorem lift_col (k : Fin 2048) (r : Fin (S256x2048.size 0)) :
    reduces_S256x2048_S2048.lift (ix1 k) r = ix2 (⟨r.val, r.isLt⟩ : Fin 256) k := by
  funext c; apply Fin.ext
  fin_cases c <;> rfl

include h0 h1 h2 in
/-- The sublane sum of the quotient over the tile's rows is the tile's column sum. -/
theorem pay7_at (k : Fin 2048) :
    k0_pay7 (F := Ideal) x0 x1 x2 (ix2 (0 : Fin 1) k) = tileSum x mask b j k := by
  unfold k0_pay7
  refine (shapeCast_a_1a_apply _ shapeCasts_S2048_S1x2048 (0 : Fin 1) k).trans ?_
  refine (Ideal.multiReduction_add_single (k0_pay5 (F := Ideal) x0 x1 x2) 0x00000000#32 reduces_S256x2048_S2048
    (.inl rfl) rfl (ix1 k)).trans ?_
  unfold tileSum
  refine Finset.sum_congr rfl fun r _ => ?_
  rw [lift_col]
  exact pay5_at x0 x1 x2 x mask b j h0 h1 h2 ⟨r.val, r.isLt⟩ k

end Blocks

end Cert.KernelIdeal.PayAt

end
-- ==== Proof.KI.Final3.lean ====
/-
  The first result's array after the run: every point writes back the probabilities of its tile's 256 query rows
  against all 2048 keys, the 64 blocks tile the array, so the array ends holding the specification's probabilities.
-/
import proofs.«126320_j37881611551174_2_alg».proof.Proof.KI.Blocks
import proofs.«126320_j37881611551174_2_alg».proof.Proof.KI.PayAt

set_option maxRecDepth 16384

noncomputable section

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame Cert.AttnSpec

variable (m : (ℓ : Loc nD τ sig) → Buf (Elt Ideal) ℓ) (ρ : Dev nD → PrngReg)

/-- The softmax payload of point `t`'s blocks, at a coordinate of the block, is the probability of the tile's row. -/
theorem pay6_blk (c : Dev nD) (t : Fin cfg0.N) (j : S1x256x2048.Idx) :
    k0_pay6 (F := Ideal) (iblk (V1 (F := Ideal) m ρ) c 0 t) (iblk (V1 (F := Ideal) m ρ) c 1 t) (iblk (V1 (F := Ideal) m ρ) c 2 t) j
      = probs (xOf m c) (maskOf m c) (((cfg0.win 3).blk t).view.emb j) := by
  obtain ⟨z, r, k, rfl⟩ : ∃ (z : Fin 1) (r : Fin 256) (k : Fin 2048), j = ix3 z r k := ⟨j 0, j 1, j 2, eq_ix3 j⟩
  obtain rfl : z = 0 := Subsingleton.elim _ _
  rw [PayAt.pay6_at (x := xOf m c) (mask := maskOf m c) (b := bOf t) (j := jOf t) (h0 := fun r d => blk0_at m ρ c t r d) (h1 := fun k d => blk1_at m ρ c t k d) (h2 := fun r k => blk2_at m ρ c t r k)]
  obtain ⟨-, -, -, -, -, -, -, -, -, e0, e1, e2, -⟩ := idx_facts t
  unfold probs
  congr 1
  · apply Fin.ext; show t.val / 8 = win0_3.index t (0 : Fin 3) * 1 + 1 * 0; omega
  · apply Fin.ext; show 256 * (t.val % 8) + r.val = win0_3.index t (1 : Fin 3) * 256 + 1 * r.val; omega
  · apply Fin.ext; show k.val = win0_3.index t (2 : Fin 3) * 2048 + 1 * k.val; omega

/-- WHAT POINT `t` WRITES BACK is block `t` of the probabilities. -/
theorem flushed3_eq (c : Dev nD) (t : Fin cfg0.N) :
    (dat (V1 (F := Ideal) m ρ) c).flushed 3 t = ((cfg0.win 3).blk t).view.read (Elt Ideal) (probs (xOf m c) (maskOf m c)) := by
  show (cfg0.win 3).cut (grid0.coords t) ((dat (V1 (F := Ideal) m ρ) c).after 3 t) = _
  rw [after0_3, out3At_eq]
  funext j
  exact pay6_blk m ρ c t j

theorem mem_blk3 (t : Fin cfg0.N) (i : S8x2048x2048.Idx) :
    i ∈ ((cfg0.win 3).blk t).view.set ↔ ∀ a : Fin 3, win0_3.index t a * S1x256x2048.size a ≤ (i a).val ∧ (i a).val < win0_3.index t a * S1x256x2048.size a + S1x256x2048.size a := by
  show i ∈ ((View.whole main_v1_0).slice (win0_3.rect t)).set ↔ _
  rw [View.set_slice_whole, Rect.mem_set_unit]
  exact Iff.rfl

/-- Every index of the array is in the block of the point of its batch and query tile. -/
theorem cover3 (i : S8x2048x2048.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  have hN : cfg0.N = 64 := N_0
  refine ⟨⟨8 * (i 0).val + (i 1).val / 256, by omega⟩, flush0_3 _, ?_⟩
  rw [mem_blk3]
  obtain ⟨-, -, -, -, -, -, -, -, -, e0, e1, e2, -⟩ := idx_facts ⟨8 * (i 0).val + (i 1).val / 256, by omega⟩
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 256 ≤ (i 1).val ∧ (i 1).val < win0_3.index _ (1 : Fin 3) * 256 + 256; omega
  | ⟨2, _⟩ => show win0_3.index _ (2 : Fin 3) * 2048 ≤ (i 2).val ∧ (i 2).val < win0_3.index _ (2 : Fin 3) * 2048 + 2048; omega

/-- THE ARRAY after the run: the specification's probabilities. -/
theorem final3 (c : Dev nD) : (dat (V1 (F := Ideal) m ρ) c).arrAt 3 cfg0.N = probs (xOf m c) (maskOf m c) :=
  (dat (V1 (F := Ideal) m ρ) c).arrAt_eq_of_cover 3 (probs (xOf m c) (maskOf m c)) (fun t _ => flushed3_eq m ρ c t) cover3

end Cert.KernelIdeal.Value

end
-- ==== Proof.KI.ScrAcc.lean ====
/-
  The column-sum scratch after each grid point. Point n is tile n % 8 of batch n / 8. At a batch's first tile the
  scratch is set to 0 and the tile's column sums are added; at a later tile the tile's column sums are added to what
  the point before (the same batch's previous tile) left. So after point n the scratch holds the column sums of the
  probabilities accumulated over tiles 0 … n % 8 of batch n / 8.
-/
import proofs.«126320_j37881611551174_2_alg».proof.Proof.KI.Blocks
import proofs.«126320_j37881611551174_2_alg».proof.Proof.KI.PayAt

set_option maxRecDepth 16384

noncomputable section

open scoped BigOperators

namespace Cert.AttnSpec

open Idealize.ShloMosaic Idealize.ShloMosaic.ValueIdx

/-- The accumulated column sums do not depend on how the tile's number is written. -/
theorem colAcc_congr (x : (⟨3, ![8, 2048, 512]⟩ : Shape).Idx → EReal) (mask : (⟨3, ![8, 2048, 2048]⟩ : Shape).Idx → BitVec 32)
    (b : Fin 8) (i i' : ℕ) (hi : i < 8) (hi' : i' < 8) (e : i = i') (k : Fin 2048) :
    colAcc x mask b i hi k = colAcc x mask b i' hi' k := by
  subst e; rfl

/-- At tile 0 they are 0 plus the tile's sums. -/
theorem colAcc_of_zero (x : (⟨3, ![8, 2048, 512]⟩ : Shape).Idx → EReal) (mask : (⟨3, ![8, 2048, 2048]⟩ : Shape).Idx → BitVec 32)
    (b : Fin 8) (i : ℕ) (hi : i < 8) (hz : i = 0) (k : Fin 2048) :
    colAcc x mask b i hi k = 0 + tileSum x mask b ⟨i, hi⟩ k := by
  subst hz; rfl

/-- At a later tile they are the previous tile's plus the tile's sums. -/
theorem colAcc_of_succ (x : (⟨3, ![8, 2048, 512]⟩ : Shape).Idx → EReal) (mask : (⟨3, ![8, 2048, 2048]⟩ : Shape).Idx → BitVec 32)
    (b : Fin 8) (i i' : ℕ) (hi : i < 8) (hi' : i' < 8) (hs : i = i' + 1) (k : Fin 2048) :
    colAcc x mask b i hi k = colAcc x mask b i' hi' k + tileSum x mask b ⟨i, hi⟩ k := by
  subst hs; rfl

end Cert.AttnSpec

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame Cert.AttnSpec

variable (m : (ℓ : Loc nD τ sig) → Buf (Elt Ideal) ℓ) (ρ : Dev nD → PrngReg)

/-- The tile's column sums, as the body computes them from the point's blocks. -/
theorem pay7_blk (c : Dev nD) (t : Fin cfg0.N) (k : Fin 2048) :
    k0_pay7 (F := Ideal) (iblk (V1 (F := Ideal) m ρ) c 0 t) (iblk (V1 (F := Ideal) m ρ) c 1 t)
        (iblk (V1 (F := Ideal) m ρ) c 2 t) (ix2 (0 : Fin 1) k)
      = tileSum (xOf m c) (maskOf m c) (bOf t) (jOf t) k :=
  PayAt.pay7_at _ _ _ (xOf m c) (maskOf m c) (bOf t) (jOf t) (fun r d => blk0_at m ρ c t r d)
    (fun k d => blk1_at m ρ c t k d) (fun r k => blk2_at m ρ c t r k) k

/-- At a batch's first tile: 0 plus the tile's column sums. -/
theorem scr_first (c : Dev nD) (t : Fin cfg0.N) (h0 : t.val % 8 = 0) (k : Fin 2048) :
    scrAt (V1 (F := Ideal) m ρ) c t.val t.isLt (ix2 (0 : Fin 1) k)
      = colAcc (xOf m c) (maskOf m c) (bOf t) (t.val % 8) (Nat.mod_lt _ (by decide)) k := by
  rw [scrAt_first (V1 (F := Ideal) m ρ) c t h0, PayAt.pay1_at, PayAt.pay3_at, pay7_blk]
  exact (colAcc_of_zero _ _ _ _ _ h0 k).symm

/-- THE SCRATCH after point n: the column sums accumulated over tiles 0 … n % 8 of batch n / 8. -/
theorem scr_eq (c : Dev nD) : ∀ (n : ℕ) (h : n < cfg0.N) (k : Fin 2048),
    scrAt (V1 (F := Ideal) m ρ) c n h (ix2 (0 : Fin 1) k)
      = colAcc (xOf m c) (maskOf m c) (bOf ⟨n, h⟩) (n % 8) (Nat.mod_lt _ (by decide)) k := by
  intro n
  induction n with
  | zero =>
    intro h k
    exact scr_first m ρ c ⟨0, h⟩ (Nat.zero_mod 8) k
  | succ n ih =>
    intro h k
    by_cases h0 : (n + 1) % 8 = 0
    · exact scr_first m ρ c ⟨n + 1, h⟩ h0 k
    · have hb : bOf (⟨n, Nat.lt_of_succ_lt h⟩ : Fin cfg0.N) = bOf ⟨n + 1, h⟩ :=
        Fin.ext (by show n / 8 = (n + 1) / 8; omega)
      have e := scrAt_next (V1 (F := Ideal) m ρ) c ⟨n + 1, h⟩ h0
      show scrAt (V1 (F := Ideal) m ρ) c (⟨n + 1, h⟩ : Fin cfg0.N).val (⟨n + 1, h⟩ : Fin cfg0.N).isLt
        (ix2 (0 : Fin 1) k) = _
      rw [e, PayAt.pay1_at, pay7_blk]
      show scrAt (V1 (F := Ideal) m ρ) c n (Nat.lt_of_succ_lt h) (ix2 (0 : Fin 1) k) + _ = _
      rw [ih (Nat.lt_of_succ_lt h) k, hb]
      exact (colAcc_of_succ _ _ _ ((n + 1) % 8) (n % 8) _ _ (by omega) k).symm

end Cert.KernelIdeal.Value

end
-- ==== Proof.KI.Final4.lean ====
/-
  The second result's array after the run. Its window is written back at each batch's last tile (the points
  ≡ 7 mod 8), block (batch, 0, all features). What is written there is the product of the scratch — by then the
  column sums of the batch's probabilities over all eight tiles — with the batch's key rows; when the features
  are real numbers that is the specification's sum over every query and key. The eight blocks tile the array.
-/
import proofs.«126320_j37881611551174_2_alg».proof.Proof.KI.ScrAcc

set_option maxRecDepth 16384

noncomputable section

open scoped BigOperators

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame Cert.AttnSpec

variable (m : (ℓ : Loc nD τ sig) → Buf (Elt Ideal) ℓ) (ρ : Dev nD → PrngReg)

/-- The second result as an array over [8, 1, 512]. -/
abbrev out4Of (c : Dev nD) : S8x1x512.Idx → EReal :=
  fun i => outSum (xOf m c) (maskOf m c) (ix2 (i 0) (i 2))

/-- At a batch's last tile the stored product, at feature d, is the specification's second result at
    (batch, d). -/
theorem out4_last_at (c : Dev nD) (hx : ∀ i, ∃ r : ℝ, xOf m c i = (r : EReal)) (t : Fin cfg0.N) (h7 : t.val % 8 = 7)
    (d : Fin 512) :
    out4At (V1 (F := Ideal) m ρ) c t (ix3 (0 : Fin 1) (0 : Fin 1) d)
      = outSum (xOf m c) (maskOf m c) (ix2 (bOf t) d) := by
  rw [out4At_last (V1 (F := Ideal) m ρ) c t h7, PayAt.pay2_at]
  refine Eq.trans (Finset.sum_congr rfl fun k _ => ?_) (colAcc_total (xOf m c) (maskOf m c) hx (bOf t) d)
  rw [scr_eq m ρ c t.val t.isLt k, PayAt.pay4_at, blk1_at]
  exact congrArg (· * xOf m c (ix3 (bOf t) k d))
    (colAcc_congr (xOf m c) (maskOf m c) (bOf t) (t.val % 8) 7 _ _ h7 k)

/-- WHAT A FLUSHING POINT WRITES BACK is its block of the second result. -/
theorem flushed4_eq (c : Dev nD) (hx : ∀ i, ∃ r : ℝ, xOf m c i = (r : EReal)) (t : Fin cfg0.N) (h7 : t.val % 8 = 7) :
    (dat (V1 (F := Ideal) m ρ) c).flushed 4 t = ((cfg0.win 4).blk t).view.read (Elt Ideal) (out4Of m c) := by
  show (cfg0.win 4).cut (grid0.coords t) ((dat (V1 (F := Ideal) m ρ) c).after 4 t) = _
  rw [after0_4]
  funext j
  obtain ⟨z, z', d, rfl⟩ : ∃ (z z' : Fin 1) (d : Fin 512), j = ix3 z z' d := ⟨j 0, j 1, j 2, eq_ix3 j⟩
  obtain rfl : z = 0 := Subsingleton.elim _ _
  obtain rfl : z' = 0 := Subsingleton.elim _ _
  refine (out4_last_at m ρ c hx t h7 d).trans ?_
  show _ = outSum (xOf m c) (maskOf m c)
    (ix2 ((((cfg0.win 4).blk t).view.emb (ix3 (0 : Fin 1) (0 : Fin 1) d)) 0)
      ((((cfg0.win 4).blk t).view.emb (ix3 (0 : Fin 1) (0 : Fin 1) d)) 2))
  obtain ⟨-, -, -, -, -, -, -, -, -, -, -, -, e0, e1, e2⟩ := idx_facts t
  congr 2
  · apply Fin.ext; show t.val / 8 = win0_4.index t (0 : Fin 3) * 1 + 1 * 0; omega
  · apply Fin.ext; show d.val = win0_4.index t (2 : Fin 3) * 512 + 1 * d.val; omega

theorem mem_blk4 (t : Fin cfg0.N) (i : S8x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v1_1).slice (win0_4.rect t)).set ↔ _
  rw [View.set_slice_whole, Rect.mem_set_unit]
  exact Iff.rfl

/-- Every index of the array is in the block of its batch's last tile. -/
theorem cover4 (i : S8x1x512.Idx) : ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 512 := (i 2).isLt
  have hN : cfg0.N = 64 := N_0
  refine ⟨⟨8 * (i 0).val + 7, by omega⟩, (flush0_4 _).mpr (by show (8 * (i 0).val + 7) % 8 = 7; omega), ?_⟩
  rw [mem_blk4]
  obtain ⟨-, -, -, -, -, -, -, -, -, -, -, -, e0, e1, e2⟩ := idx_facts ⟨8 * (i 0).val + 7, by omega⟩
  dsimp only at e0 e1 e2
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 512 ≤ (i 2).val ∧ (i 2).val < win0_4.index _ (2 : Fin 3) * 512 + 512; omega

/-- THE ARRAY after the run: the specification's second result, when the features are real numbers. -/
theorem final4 (c : Dev nD) (hx : ∀ i, ∃ r : ℝ, xOf m c i = (r : EReal)) :
    (dat (V1 (F := Ideal) m ρ) c).arrAt 4 cfg0.N
      = fun i : S8x1x512.Idx => outSum (xOf m c) (maskOf m c) (ix2 (i 0) (i 2)) :=
  (dat (V1 (F := Ideal) m ρ) c).arrAt_eq_of_cover 4 (out4Of m c)
    (fun t ht => flushed4_eq m ρ c hx t ((flush0_4 t).mp ht)) (cover4)

end Cert.KernelIdeal.Value

end
-- ==== Proof.KI.KernelValue.lean ====
/-
  The kernel's two results after the run, at the ideal values: the first result's array is the specification's
  probabilities (the 64 write-backs tile it); the second result is the [8,1,512] array of the accumulated column sums
  times the key slab, reshaped to [8,512] by the host, which is the specification's double sum — the column sums of
  the probabilities times x, summed over keys, is the sum over queries and keys of probability times x, the
  probabilities being nonnegative (the inputs finite).
-/
import proofs.«126320_j37881611551174_2_alg».proof.Proof.KI.Final3
import proofs.«126320_j37881611551174_2_alg».proof.Proof.KI.Final4
import Idealize.ShloMosaic.Lib.Pipeline.Value

set_option maxRecDepth 16384

noncomputable section

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame Cert.AttnSpec

variable (m : (ℓ : Loc nD τ sig) → Buf (Elt Ideal) ℓ) (ρ : Dev nD → PrngReg)

/-- The host's reshape of the second result's [8,1,512] array to [8,512], read at (b, d): the array at (b, 0, d). -/
theorem W3_main_v2 (c : Dev nD) (hx : ∀ i, ∃ r : ℝ, xOf m c i = (r : EReal)) :
    (W3 (F := Ideal) m ρ c (Proc.devRef .tc main_v2) : (⟨2, ![8, 512]⟩ : Shape).Idx → EReal) = outSum (xOf m c) (maskOf m c) := by
  have e : (W3 (F := Ideal) m ρ c (Proc.devRef .tc main_v2) : (⟨2, ![8, 512]⟩ : Shape).Idx → EReal)
      = shapeCast S8x512 (W2 (F := Ideal) m ρ c (Proc.devRef .tc main_v1_1) : S8x1x512.Idx → EReal) shapeCasts_S8x1x512_S8x512 := by
    show StableHlo.after hostOps1 (W2 (F := Ideal) m ρ c) (Proc.devRef .tc main_v2) = _
    after_results
    rfl
  rw [e, show (W2 (F := Ideal) m ρ c (Proc.devRef .tc main_v1_1) : S8x1x512.Idx → EReal) = _ from (W2_arr m ρ c 4).trans (final4 m ρ c hx)]
  funext j
  obtain ⟨b, d, rfl⟩ : ∃ (b : Fin 8) (d : Fin 512), j = ix2 b d := ⟨j 0, j 1, eq_ix2 j⟩
  rw [shapeCast_apply _ _ (ix2 b d) (ix3 b (0 : Fin 1) d) (by
    rw [Shape.rowMajor_val_three, Shape.rowMajor_val_two]
    show (b.val * 1 + 0) * 512 + d.val = b.val * 512 + d.val
    omega)]

/-- THE KERNEL'S RUN, READ: both results at the specification's functions of the argument arrays, the arguments
    unchanged. -/
theorem run (hx : ∀ c i, ∃ r : ℝ, xOf m c i = (r : EReal)) :
    θ_run defs (onTc (τ := τ) (main (F := Ideal))) ⟨m, fun _ => 0, ρ⟩ (fun r => ∀ c : Dev nD,
      r.2.mem ((c.tc : Thread nD τ).loc main_v2) = outSum (xOf m c) (maskOf m c)
      ∧ r.2.mem ((c.tc : Thread nD τ).loc main_v1_0) = probs (xOf m c) (maskOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_main_v2 m ρ c (hx c)),
     (h c _ (mem_uc main_v1_0 (by decide))).trans ((W3_main_v1_0 m ρ c).trans (final3 m ρ c)),
     (h c _ (mem_uc main_arg0 (by decide))).trans (W3_main_arg0 m ρ c),
     (h c _ (mem_uc main_arg1 (by decide))).trans (W3_main_arg1 m ρ c)⟩) (run_all m ρ)

end Cert.KernelIdeal.Value

end
-- ==== Proof.RefProbs.lean ====
/-
  The reference program's first result, read index by index: its scores are the masked, scaled exponentials of
  the inner products; its row maximum is the fold of max from −∞ (the further maximum with −∞ changes nothing);
  its shifted exponentials, their row sums (the initial value of the sum is 0) and their quotient are the
  probabilities of the specification.
-/
import proofs.«126320_j37881611551174_2_alg».proof.Proof.Gen.ReferenceIdeal.Read
import proofs.«126320_j37881611551174_2_alg».proof.Proof.Spec
import proofs.«126320_j37881611551174_2_alg».proof.Proof.RefConsts

noncomputable section

open scoped BigOperators

namespace Cert.ReferenceIdeal.RefValue

open Cert.ReferenceIdeal Cert.ReferenceIdeal.Gen Cert.ReferenceIdeal.Read Idealize.ShloMosaic
  Idealize.ShloMosaic.ValueIdx Cert.AttnSpec

/-- The feature array's contents on the extended reals. -/
abbrev XArr : Type := (⟨S8x2048x512, .f32⟩ : BufTy).Contents (Elt Ideal)
/-- The mask array's contents. -/
abbrev MArr : Type := (⟨S8x2048x2048, .i32⟩ : BufTy).Contents (Elt Ideal)

/-! ## The composed index maps at coordinates -/

theorem lidx_v0_ix (b : Fin 8) (q k : Fin 2048) (d : Fin 512) : lidx_main_v0 (ix3 b q k) d = ix3 b q d :=
  funext fun a => Fin.ext (by match a with | ⟨0, _⟩ => rfl | ⟨1, _⟩ => rfl | ⟨2, _⟩ => rfl)

theorem ridx_v0_ix (b : Fin 8) (q k : Fin 2048) (d : Fin 512) : ridx_main_v0 (ix3 b q k) d = ix3 b k d :=
  funext fun a => Fin.ext (by match a with | ⟨0, _⟩ => rfl | ⟨1, _⟩ => rfl | ⟨2, _⟩ => rfl)

theorem idx_v11_ix (b : Fin 8) (q k : Fin 2048) : idx_main_v10 (idx_main_v11 (ix3 b q k)) = ix2 b q :=
  funext fun a => Fin.ext (by match a with | ⟨0, _⟩ => rfl | ⟨1, _⟩ => rfl)

theorem idx_v16_ix (b : Fin 8) (q k : Fin 2048) : idx_main_v15 (idx_main_v16 (ix3 b q k)) = ix2 b q :=
  funext fun a => Fin.ext (by match a with | ⟨0, _⟩ => rfl | ⟨1, _⟩ => rfl)

theorem idx_v14_ix (b : Fin 8) (q k : Fin 2048) : idx_main_v14 (ix2 b q) k = ix3 b q k :=
  funext fun a => Fin.ext (by match a with | ⟨0, _⟩ => rfl | ⟨1, _⟩ => rfl | ⟨2, _⟩ => rfl)

/-! ## The scores -/

/-- A select on an equality test is the conditional on the equality. -/
theorem select_cmpi_eq {α : Type} (a b : BitVec 32) (u v : α) :
    Scalar.select (IntOp.cmpi .eq a b) u v = if a = b then u else v := by
  by_cases h : a = b
  · rw [if_pos h, IntOp.cmpi_eq.2 h]; exact select_one u v
  · rw [if_neg h]
    unfold Scalar.select
    exact if_neg (fun hc => h (IntOp.cmpi_eq.1 hc))

/-- The first contraction is the inner product of the query row and the key row. -/
theorem v0_ix (x : XArr) (b : Fin 8) (q k : Fin 2048) :
    val_main_v0 (F := Ideal) x (ix3 b q k) = dotqk x b q k := by
  rw [val_main_v0_apply]
  unfold dotqk
  simp only [lidx_v0_ix, ridx_v0_ix]

/-- The selected value is the masked, scaled score. -/
theorem v6_ix (x : XArr) (mask : MArr) (b : Fin 8) (q k : Fin 2048) :
    val_main_v6 (F := Ideal) x mask (ix3 b q k) = score x mask b q k := by
  rw [val_main_v6_apply, val_main_v5_apply, val_main_v4_apply, val_main_c_apply, val_main_call0_v0_apply,
    val_main_cst_0_apply, val_main_v3_apply, val_main_v1_apply, val_main_v2_apply, val_main_cst_apply, v0_ix,
    select_cmpi_eq]
  unfold score fill
  simp only [Ideal.hostDivf_def, Ideal.hostUnary_exp_def, Ideal.ofBits_def, div_divisor]

/-! ## The row maximum -/

theorem reduces_keys : S8x2048x2048.Reduces [2] S8x2048 := by decide

/-- A row index with the key coordinate put back. -/
theorem lift_keys (b : Fin 8) (q : Fin 2048) (k : Fin (S8x2048x2048.size 2)) :
    reduces_keys.lift (ix2 b q) k = ix3 b q (⟨k.val, k.isLt⟩ : Fin 2048) := by
  funext c; apply Fin.ext
  fin_cases c <;> rfl

/-- The reduce with a maximum body from −∞ over the keys is the specification's fold. -/
theorem v7_ix (x : XArr) (mask : MArr) (b : Fin 8) (q : Fin 2048) :
    val_main_v7 (F := Ideal) x mask (ix2 b q) = rowMax x mask b q := by
  unfold val_main_v7
  refine (Host.reduce_eq_fold_single (α := Ideal .f32) (s := S8x2048x2048) (t := S8x2048) (u := S_)
    (FloatOps.maximumf (F := Ideal) (φ := .f32)) (val_main_v6 (F := Ideal) x mask) (val_main_cst_1 (F := Ideal))
    reducesTo_S8x2048x2048_S8x2048_d2 reduces_keys h_S_ (ix2 b q)).trans ?_
  unfold rowMax
  have hf : (val_main_v6 (F := Ideal) x mask ∘ reduces_keys.lift (ix2 b q))
      = fun k : Fin 2048 => score x mask b q k :=
    funext fun k => by rw [Function.comp_apply, lift_keys, v6_ix]; rfl
  exact congrArg (fun f => Finset.fold max (Ideal.ofBits .f32 0xFF800000#32) f (Finset.univ : Finset (Fin 2048))) hf

/-- The maximum with the broadcast −∞ leaves the row maximum. -/
theorem v9_ix (x : XArr) (mask : MArr) (b : Fin 8) (q : Fin 2048) :
    val_main_v9 (F := Ideal) x mask (ix2 b q) = rowMax x mask b q := by
  rw [val_main_v9_apply, val_main_v8_apply, val_main_cst_2_apply, v7_ix]
  simp only [Ideal.maximumf_def, Ideal.ofBits_def, max_neg_inf]

/-! ## The shifted exponentials, their sums, the probabilities -/

theorem v13_ix (x : XArr) (mask : MArr) (b : Fin 8) (q k : Fin 2048) :
    val_main_v13 (F := Ideal) x mask (ix3 b q k) = unnorm x mask b q k := by
  rw [val_main_v13_apply, val_main_v12_apply, val_main_v11_apply, val_main_v10_apply, idx_v11_ix, v9_ix, v6_ix]
  unfold unnorm
  simp only [Ideal.hostUnary_exp_def, Ideal.subf_def]

theorem v14_ix (x : XArr) (mask : MArr) (b : Fin 8) (q : Fin 2048) :
    val_main_v14 (F := Ideal) x mask (ix2 b q) = rowSum x mask b q := by
  rw [val_main_v14_apply, val_main_cst_3_apply]
  unfold rowSum
  simp only [Ideal.ofBits_def, Ideal.ofBits_zero_f32, zero_add, idx_v14_ix, v13_ix]

theorem v17_ix (x : XArr) (mask : MArr) (b : Fin 8) (q k : Fin 2048) :
    val_main_v17 (F := Ideal) x mask (ix3 b q k) = prob x mask b q k := by
  rw [val_main_v17_apply, val_main_v16_apply, val_main_v15_apply, idx_v16_ix, v14_ix, v13_ix]
  unfold prob
  simp only [Ideal.hostDivf_def]

/-- The reference's first result is the specification's array of probabilities. -/
theorem ref_probs (x : XArr) (mask : MArr) : val_main_v17 (F := Ideal) x mask = probs x mask := by
  funext i
  rw [eq_ix3 i]
  exact v17_ix x mask (i 0) (i 1) (i 2)

end Cert.ReferenceIdeal.RefValue

end
-- ==== Proof.RefOut.lean ====
/-
  The reference program's second result, read index by index: the second contraction sums, over the keys, the
  probability times the key row's feature; the final sum over the query rows starts from 0. Together: the sum
  over every query and key of the probability times the key's feature, which is the specification's second array.
-/
import proofs.«126320_j37881611551174_2_alg».proof.Proof.RefProbs

noncomputable section

open scoped BigOperators

namespace Cert.ReferenceIdeal.RefValue

open Cert.ReferenceIdeal Cert.ReferenceIdeal.Gen Cert.ReferenceIdeal.Read Idealize.ShloMosaic
  Idealize.ShloMosaic.ValueIdx Cert.AttnSpec

/-- The probability read by the term of query `q` and key `k` in the sum for result entry (b, d). -/
theorem lidx_v18_ix (b : Fin 8) (d : Fin 512) (q k : Fin 2048) :
    lidx_main_v18 (idx_main_v19 (ix2 b d) q) k = ix3 b q k :=
  funext fun a => Fin.ext (by match a with | ⟨0, _⟩ => rfl | ⟨1, _⟩ => rfl | ⟨2, _⟩ => rfl)

/-- The feature read by that term: feature `d` of key row `k`. -/
theorem ridx_v18_ix (b : Fin 8) (d : Fin 512) (q k : Fin 2048) :
    ridx_main_v18 (idx_main_v19 (ix2 b d) q) k = ix3 b k d :=
  funext fun a => Fin.ext (by match a with | ⟨0, _⟩ => rfl | ⟨1, _⟩ => rfl | ⟨2, _⟩ => rfl)

/-- Entry (b, d) of the second result: 0 plus the sum over queries of the contraction over keys. -/
theorem v19_ix (x : XArr) (mask : MArr) (b : Fin 8) (d : Fin 512) :
    val_main_v19 (F := Ideal) x mask (ix2 b d)
      = ∑ q : Fin 2048, ∑ k : Fin 2048, prob x mask b q k * x (ix3 b k d) := by
  rw [val_main_v19_apply, val_main_cst_4_apply]
  simp only [Ideal.ofBits_def, Ideal.ofBits_zero_f32, zero_add, val_main_v18_apply, lidx_v18_ix, ridx_v18_ix,
    v17_ix]

/-- The reference's second result is the specification's summed, probability-weighted key rows. -/
theorem ref_out (x : XArr) (mask : MArr) : val_main_v19 (F := Ideal) x mask = outSum x mask := by
  funext i
  rw [eq_ix2 i]
  exact v19_ix x mask (i 0) (i 1)

end Cert.ReferenceIdeal.RefValue

end
-- ==== Proof.RefFinite.lean ====
/-
  The precondition says |x| < +∞ at every entry of the feature array (the conjunction over all entries is a
  reduce by "and" from 1 that came out 1). An extended real whose absolute value is below +∞ is neither
  infinity, so it is a real number.
-/
import proofs.«126320_j37881611551174_2_alg».proof.Pre_finite_inputs
import Idealize.ShloMosaic.Lib.ReduceAll
import Idealize.ShloMosaic.Lib.Pipeline.Value
import Idealize.ShloMosaic.Lib.ValueIdx
import Idealize.ShloMosaic.PureOps.Ideal.Laws
import proofs.«126320_j37881611551174_2_alg».proof.Proof.RefConsts

noncomputable section

namespace Cert.ReferenceIdeal.RefValue

open Idealize.ShloMosaic

/-- The scalar shape has one index. -/
instance : Subsingleton Cert.Pre_finite_inputs.S_.Idx := ⟨fun a b => funext fun d => d.elim0⟩

/-- An extended real whose absolute value is below +∞ is a real. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the precondition every entry of the feature array is a real number. -/
theorem finite_x [Cert.Pre_finite_inputs.Facts] (x : FVec Ideal Cert.Pre_finite_inputs.S8x2048x512 .f32)
    (mask : IVec Cert.Pre_finite_inputs.S8x2048x2048 32)
    (h : Cert.Pre_finite_inputs.fn (F := Ideal) x mask = fun _ => 1#1) (i : Cert.Pre_finite_inputs.S8x2048x512.Idx) :
    ∃ r : ℝ, x i = (r : EReal) := by
  have h0 := congrFun h ValueIdx.ix0
  dsimp only [Cert.Pre_finite_inputs.fn] at h0
  have hi := Host.reduce_andi_all _ _ _ _ _ h0 i
  have hb := broadcastInDim_apply (![] : Fin 0 → Fin Cert.Pre_finite_inputs.S8x2048x512.rank)
    Cert.Pre_finite_inputs.Facts.bcast_S_S8x2048x512
    (constant Cert.Pre_finite_inputs.S_ .f32 0x7F800000#32 : FVec Ideal Cert.Pre_finite_inputs.S_ .f32) i ValueIdx.ix0
    (fun a => a.elim0)
  have hc : Ideal.cmp .olt (max (x i) (-(x i)))
      (broadcastInDim Cert.Pre_finite_inputs.S8x2048x512 ![] Cert.Pre_finite_inputs.Facts.bcast_S_S8x2048x512
        (constant Cert.Pre_finite_inputs.S_ .f32 0x7F800000#32 : FVec Ideal Cert.Pre_finite_inputs.S_ .f32) i) = 1#1 := hi
  rw [hb] at hc
  have hc' : Ideal.cmp .olt (max (x i) (-(x i))) ⊤ = 1#1 := by rw [← ofBits_pos_inf]; exact hc
  have hlt : max (x i) (-(x i)) < ⊤ := by
    by_contra hn
    have h0' : Ideal.cmp .olt (max (x i) (-(x i))) ⊤ = 0#1 := by
      show BitVec.ofBool (decide (max (x i) (-(x i)) < ⊤)) = 0#1
      rw [decide_eq_false hn]; rfl
    rw [h0'] at hc'
    exact absurd hc' (by decide)
  exact real_of_abs_lt_top _ hlt

end Cert.ReferenceIdeal.RefValue

end
-- ==== Proof.lean ====
/-
  Attention with the exponential taken before the scale, over 8 sequences of 2048 rows of 512 features:
  scores e^(x_q · x_k) · s with the masked entries replaced by a fill value, a shifted softmax along the keys, and
  the probability-weighted key rows summed over every query and key. The kernel computes the probabilities tile by
  tile (256 query rows against all 2048 keys, the whole row of scores at once) and, instead of the weighted rows,
  accumulates the column sums of the probabilities over a batch's 8 tiles and multiplies them with the key slab
  once; the reference divides the exponentials by the constant D = 11863283/524288 where the kernel multiplies by
  the constant named 1/D. On the extended reals the quotient by D is the product with 1/D; the two softmaxes are one
  formula; and, the inputs being finite, every probability is a nonnegative real, so the column sums times x summed
  over keys is the sum over queries and keys of probability times x. The three programs' frames: the two kernels'
  by running the body at every grid point (three cases: a batch's first tile zeroes the column-sum scratch, a
  middle tile adds to it, the last tile also stores the product), the reference's from its run.
-/
import proofs.«126320_j37881611551174_2_alg».proof.Defs
import proofs.«126320_j37881611551174_2_alg».proof.Proof.Gen.Kernel
import proofs.«126320_j37881611551174_2_alg».proof.Proof.Gen.KernelIdeal
import proofs.«126320_j37881611551174_2_alg».proof.Proof.Gen.ReferenceIdeal
import proofs.«126320_j37881611551174_2_alg».proof.Proof.Gen.Pre_finite_inputs
import proofs.«126320_j37881611551174_2_alg».proof.Proof.Gen.ReferenceIdeal.Run
import proofs.«126320_j37881611551174_2_alg».proof.Proof.Gen.ReferenceIdeal.Read
import proofs.«126320_j37881611551174_2_alg».proof.Proof.K.Run
import proofs.«126320_j37881611551174_2_alg».proof.Proof.KI.KernelValue
import proofs.«126320_j37881611551174_2_alg».proof.Proof.RefOut
import proofs.«126320_j37881611551174_2_alg».proof.Proof.RefFinite
import Idealize.ShloMosaic.Adequacy
import Idealize.ShloMosaic.Init

noncomputable section

namespace Cert.Proof

open Idealize.ShloMosaic Idealize.ShloMosaic.TcCoe Idealize.SL.Sem

/-- The word-level kernel runs at every grid point and leaves its arguments as launched. -/
theorem frame_k : Cert.frame_Kernel := fun m ρ _ => Cert.Kernel.Frame.frame m ρ
/-- So does the idealized kernel. -/
theorem frame_ki : Cert.frame_KernelIdeal := fun m ρ _ => Cert.KernelIdeal.Frame.frame m ρ
/-- The reference is a line of host operations: its run, with the results dropped. -/
theorem frame_ri : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

/-- The one rewritten constant: the scale's pattern is named, and the name's value is 524288/11863283. -/
theorem preserves : Cert.preserves_Kernel_KernelIdeal :=
  IdealRules.named_const.statement Cert.KernelIdeal.κ "inv_sqrt_d" .f32 0x3D3504F3#32 ((524288 / 11863283 : ℝ) : EReal) rfl

/-- From memories agreeing on x and the mask, with x finite, both programs end with the specification's two
    arrays: the probabilities, and their weighted sum of the key rows over every query and key. -/
theorem algebraic : Cert.algebraic_KernelIdeal_ReferenceIdeal := by
  intro m ρ m' ρ' hpre hagree
  have hx : ∀ c i, ∃ r : ℝ, Cert.KernelIdeal.Value.xOf m c i = (r : EReal) :=
    fun c i => Cert.ReferenceIdeal.RefValue.finite_x _ _ (hpre c) i
  refine ⟨fun c => Cert.AttnSpec.outSum (Cert.KernelIdeal.Value.xOf m c) (Cert.KernelIdeal.Value.maskOf m c),
    fun c => Cert.AttnSpec.probs (Cert.KernelIdeal.Value.xOf m c) (Cert.KernelIdeal.Value.maskOf m c),
    Cert.KernelIdeal.Value.run m ρ hx, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v19_eq, Cert.ReferenceIdeal.RefValue.ref_out, (hagree c).1, (hagree c).2]
  · rw [(h c).2.1, Cert.ReferenceIdeal.Read.val_main_v17_eq, Cert.ReferenceIdeal.RefValue.ref_probs, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
